-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S10000x128 : Shape := ⟨2, ![10000, 128]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x2048 .f32) (main_arg1 : FVec F S10000x128 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x2048 : Shape := ⟨2, ![10000, 2048]⟩
abbrev S10000x128 : Shape := ⟨2, ![10000, 128]⟩
abbrev S128x128 : Shape := ⟨2, ![128, 128]⟩

abbrev nBuf : Space → Nat
  | .hbm => 3
  | .vmem => 8
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .bf16⟩
  | .local _ .vmem, ⟨7, _⟩ => ⟨S10000x128, .bf16⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c7_i32_13 : BitVec 32 := 7#32
  let v24 : BitVec 1 := Scalar.cmpi .eq arg0 c7_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  dot_S10000x128_S10000x128_S128x128_0_0_1_1_n_n_wf : DotDims.WF S10000x128 S10000x128 S128x128 [0] [0] [1] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x2048.size a
  hwx0_0 : ∀ i : grid0.Coords, EltTy.bits .f32 = 32 ∨ (Rect.block (s := S10000x2048) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x2048.size a
  hwx0_1 : ∀ i : grid0.Coords, EltTy.bits .f32 = 32 ∨ (Rect.block (s := S10000x2048) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S10000x2048 : Shape := ⟨2, ![10000, 2048]⟩
abbrev S10000x128 : Shape := ⟨2, ![10000, 128]⟩
abbrev S2048x10000 : Shape := ⟨2, ![2048, 10000]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x2048, .f32⟩
  | .hbm, ⟨1, _⟩ => ⟨S10000x128, .f32⟩
  | .hbm, ⟨2, _⟩ => ⟨S2048x10000, .f32⟩
  | .hbm, ⟨3, _⟩ => ⟨S2048x128, .f32⟩
  | .hbm, ⟨4, _⟩ => ⟨S10000x128, .f32⟩
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S10000x2048_S2048x10000_1_0 : S10000x2048.Transposes [1, 0] S2048x10000
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.K.Base.lean ====
/-
  What every later module of this program's frame proof is stated over: the arrays as the region finds them, the
  blocks the windows stage, the two scratch buffers (the 16-bit copy of the embeddings, kept from the first grid
  point on, and the 16-bit running total), the conditions of the body's four branches in closed form over the 8
  grid points, where the output window is idle, and what the region is handed besides its windows: the two
  scratch buffers, each whole at some contents.
-/
import proofs.«117794_g6751688590051_cont_9to1c4b_755_29_alg».proof.Proof.Gen.Kernel.Launch
import proofs.«117794_g6751688590051_cont_9to1c4b_755_29_alg».proof.Proof.Gen.Kernel.Skeleton
import proofs.«117794_g6751688590051_cont_9to1c4b_755_29_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory (no host operation runs before it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch buffers: the 16-bit copy of the embeddings, and the 16-bit running total. -/
abbrev scM0 : Memref sig .tc .vmem S10000x128 .bf16 := Memref.whole cc0_scratch0
abbrev scM1 : Memref sig .tc .vmem S10000x128 .bf16 := Memref.whole cc0_scratch1

/-- Each window's current staging memref at point `t`, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)

/-- What the region is handed besides its windows: the two scratch buffers, each whole at some contents. -/
def Phi0 (c : Dev nD) : sProp 𝕄 :=
  iprop((∃ d, owns (c : Thread nD τ) scM0 fullShare d) ∗ (∃ d, owns (c : Thread nD τ) scM1 fullShare d))

theorem Phi0_eq (c : Dev nD) :
    (Pipeline.scopedRest (Ix := Unit) (Name := ℕ) (U := UR sig nD τ) (Lvl := ℕ) (Val := Elt F) spec0 c : sProp 𝕄) = Phi0 c := by
  unfold Phi0; rw [scopedRest0_eq]; simp only [scM0, scM1, owns_whole]; try rfl

/-! ## The body's branch conditions, decided over the grid -/

/-- The first point: the copy of the embeddings is made and the running total is started. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- A middle point: the running total is added to. -/
abbrev condMid (i : grid0.Coords) : Prop :=
  (Scalar.cmpi .ne (Scalar.extui (Scalar.andi (Scalar.cmpi .ne (BitVec.ofNat 32 (i 0).val) 0#32) (Scalar.cmpi .ne (BitVec.ofNat 32 (i 0).val) 7#32))) 0#32) = 1#1
theorem hcondMid : ∀ t : Fin cfg0.N, condMid (grid0.coords t) ↔ (t.val ≠ 0 ∧ t.val ≠ 7) :=
  (by decide +kernel : ∀ t : Fin grid0.N, condMid (grid0.coords t) ↔ (t.val ≠ 0 ∧ t.val ≠ 7))

/-- The last point: the result is written. -/
abbrev condLast (i : grid0.Coords) : Prop := k0_cond4 i = 1#1
theorem hcondLast : ∀ t : Fin cfg0.N, condLast (grid0.coords t) ↔ t.val = 7 :=
  (by decide +kernel : ∀ t : Fin grid0.N, condLast (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle, and not written back, at every point but the last. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem liveAt0_3 : ∀ t : Fin cfg0.N, condLast (grid0.coords t) → cfg0.idle 3 (grid0.coords t) = false := by decide +kernel

end Cert.Kernel.Hand

end
-- ==== Proof.K.RunA.lean ====
import proofs.«117794_g6751688590051_cont_9to1c4b_755_29_alg».proof.Proof.K.Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first grid point, on whole memrefs: the two strips, the embeddings' window and the idle output
    window are handed back as found; the 16-bit copy of the embeddings is stored into the first scratch buffer and the
    point's contribution into the second, whatever they held; the pieces the stores leave are found by the run. -/
noncomputable def kernelRun_A (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i)
    (x1 x2 x3 : Vec F S10000x128 .f32) :
    Σ' (LS0 : List (View.Piece (Elt F) S10000x128 .bf16)), { LS1 : List (View.Piece (Elt F) S10000x128 .bf16) //
      ∀ (xi4 : Vec F S10000x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare xi4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare xi4
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, ?_, fun xi4 E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3
    obtain rfl := harg4.eq_unread hf4
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Hand

end
-- ==== Proof.K.RunB.lean ====
import proofs.«117794_g6751688590051_cont_9to1c4b_755_29_alg».proof.Proof.K.Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle grid point, on whole memrefs: the two strips, the embeddings' window and the idle output
    window are handed back as found, the 16-bit copy of the embeddings is read and kept, and the running total is
    read and stored back with the point's contribution added; the pieces the store leaves are found by the run. -/
noncomputable def kernelRun_B (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i)
    (x1 x2 x3 : Vec F S10000x128 .f32) (xs0 xs1 : Vec F S10000x128 .bf16) :
    { LS1 : List (View.Piece (Elt F) S10000x128 .bf16) //
      ∀ (xi4 : Vec F S10000x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare xi4 ∗ owns (c : Thread nD τ) arg5 fullShare xs0 ∗ owns (c : Thread nD τ) arg6 fullShare xs1
            ∗ (iprop(owns (c : Thread nD τ) arg1 fullShare x1 ∗ owns (c : Thread nD τ) arg2 fullShare x2 ∗ owns (c : Thread nD τ) arg3 fullShare x3
                ∗ owns (c : Thread nD τ) arg4 fullShare xi4 ∗ owns (c : Thread nD τ) arg5 fullShare xs0
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun xi4 E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.Kernel.Hand

end
-- ==== Proof.K.RunC.lean ====
import proofs.«117794_g6751688590051_cont_9to1c4b_755_29_alg».proof.Proof.K.Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last grid point, on whole memrefs: the two strips and the embeddings' window are handed back as
    found, the two scratch buffers are read and kept, and the output window, whatever it held, is stored whole with
    the running total plus the point's contribution; the pieces the store leaves are found by the run. -/
noncomputable def kernelRun_C (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i)
    (x1 x2 x3 : Vec F S10000x128 .f32) (xs0 xs1 : Vec F S10000x128 .bf16) :
    { L4 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs0 ∗ owns (c : Thread nD τ) arg6 fullShare xs1
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs0 ∗ owns (c : Thread nD τ) arg6 fullShare xs1) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    iexists _; isplitr; · ipureintro; exact harg6.read_unread _
    iexact H6

end Cert.Kernel.Hand

end
-- ==== Proof.K.Frame.lean ====
/-
  The frame of the program's one region, point by point.

  The grid has 8 points. At the first the body copies the embeddings (16-bit) into the first scratch buffer and
  starts the running total in the second with the point's contribution; at each of the six middle points it adds
  the point's contribution to the running total; at the last it writes the running total plus the last
  contribution into the output window, which the pipeline then writes back. `outsAt` names, by recursion on the
  point, what the output window's buffer and the two scratch buffers hold after each point; the region invariant
  `PhiS` carries the two scratch buffers at those contents from point to point; the proof data `dats` hold each
  input window at its block (the two strips' windows share the array of `adj`, one half of its share each), and
  the body obligation is, per case, that case's run.
-/
import proofs.«117794_g6751688590051_cont_9to1c4b_755_29_alg».proof.Proof.K.RunA
import proofs.«117794_g6751688590051_cont_9to1c4b_755_29_alg».proof.Proof.K.RunB
import proofs.«117794_g6751688590051_cont_9to1c4b_755_29_alg».proof.Proof.K.RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Views through which the contents of the output window's buffer and of the two scratch buffers are stated. -/
abbrev VO3 : View sig .tc .vmem S10000x128 .f32 := (Memref.whole cc0_stg3_0 : Memref sig .tc .vmem S10000x128 .f32).view
abbrev VS0 : View sig .tc .vmem S10000x128 .bf16 := scM0.view
abbrev VS1 : View sig .tc .vmem S10000x128 .bf16 := scM1.view

/-- Contents nothing consults: the output window's buffer at a point where the body stores nothing into it. -/
def junk3 : Vec F S10000x128 .f32 := VO3.read (Elt F) VO3.junk

/-! ## What each case leaves -/

theorem scover_A_0 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) (y : S10000x128.Idx) :
    ∃ pc ∈ (kernelRun_A c i arg1 harg1 arg2 harg2 arg3 harg3 arg4 harg4 arg5 harg5 arg6 harg6 hc1 hc3 hc4 x1 x2 x3).1, y ∈ pc.1.set :=
  View.cover_of_tiledL (kernelRun_A c i arg1 harg1 arg2 harg2 arg3 harg3 arg4 harg4 arg5 harg5 arg6 harg6 hc1 hc3 hc4 x1 x2 x3).1 S10000x128.size (by sl_kernel_rfl) y

/-- What the first point leaves in the first scratch buffer. -/
def sout_A_0 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) : Vec F S10000x128 .bf16 :=
  VS0.read (Elt F) (VS0.writes (Elt F) VS0.junk (kernelRun_A c i arg1 harg1 arg2 harg2 arg3 harg3 arg4 harg4 arg5 harg5 arg6 harg6 hc1 hc3 hc4 x1 x2 x3).1)

theorem scover_A_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) (y : S10000x128.Idx) :
    ∃ pc ∈ (kernelRun_A c i arg1 harg1 arg2 harg2 arg3 harg3 arg4 harg4 arg5 harg5 arg6 harg6 hc1 hc3 hc4 x1 x2 x3).2.1, y ∈ pc.1.set :=
  View.cover_of_tiledL (kernelRun_A c i arg1 harg1 arg2 harg2 arg3 harg3 arg4 harg4 arg5 harg5 arg6 harg6 hc1 hc3 hc4 x1 x2 x3).2.1 S10000x128.size (by sl_kernel_rfl) y

/-- What the first point leaves in the second scratch buffer. -/
def sout_A_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) : Vec F S10000x128 .bf16 :=
  VS1.read (Elt F) (VS1.writes (Elt F) VS1.junk (kernelRun_A c i arg1 harg1 arg2 harg2 arg3 harg3 arg4 harg4 arg5 harg5 arg6 harg6 hc1 hc3 hc4 x1 x2 x3).2.1)

theorem scover_B_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i) (x1 x2 x3 : Vec F S10000x128 .f32) (xs0 xs1 : Vec F S10000x128 .bf16) (y : S10000x128.Idx) :
    ∃ pc ∈ (kernelRun_B c i arg1 harg1 arg2 harg2 arg3 harg3 arg4 harg4 arg5 harg5 arg6 harg6 hc1 hc3 hc4 x1 x2 x3 xs0 xs1).1, y ∈ pc.1.set :=
  View.cover_of_tiledL (kernelRun_B c i arg1 harg1 arg2 harg2 arg3 harg3 arg4 harg4 arg5 harg5 arg6 harg6 hc1 hc3 hc4 x1 x2 x3 xs0 xs1).1 S10000x128.size (by sl_kernel_rfl) y

/-- What a middle point leaves in the second scratch buffer. -/
def sout_B_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i) (x1 x2 x3 : Vec F S10000x128 .f32) (xs0 xs1 : Vec F S10000x128 .bf16) : Vec F S10000x128 .bf16 :=
  VS1.read (Elt F) (VS1.writes (Elt F) VS1.junk (kernelRun_B c i arg1 harg1 arg2 harg2 arg3 harg3 arg4 harg4 arg5 harg5 arg6 harg6 hc1 hc3 hc4 x1 x2 x3 xs0 xs1).1)

theorem cover_C_3 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i) (x1 x2 x3 : Vec F S10000x128 .f32) (xs0 xs1 : Vec F S10000x128 .bf16) (y : S10000x128.Idx) :
    ∃ pc ∈ (kernelRun_C c i arg1 harg1 arg2 harg2 arg3 harg3 arg4 harg4 arg5 harg5 arg6 harg6 hc1 hc3 hc4 x1 x2 x3 xs0 xs1).1, y ∈ pc.1.set :=
  View.cover_of_tiledL (kernelRun_C c i arg1 harg1 arg2 harg2 arg3 harg3 arg4 harg4 arg5 harg5 arg6 harg6 hc1 hc3 hc4 x1 x2 x3 xs0 xs1).1 S10000x128.size (by sl_kernel_rfl) y

/-- What the last point leaves in the output window's buffer. -/
def out_C_3 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i) (x1 x2 x3 : Vec F S10000x128 .f32) (xs0 xs1 : Vec F S10000x128 .bf16) : Vec F S10000x128 .f32 :=
  VO3.read (Elt F) (VO3.writes (Elt F) VO3.junk (kernelRun_C c i arg1 harg1 arg2 harg2 arg3 harg3 arg4 harg4 arg5 harg5 arg6 harg6 hc1 hc3 hc4 x1 x2 x3 xs0 xs1).1)

/-! ## The three cases' conditions at a point, from its position -/

theorem cA1 (t : Fin cfg0.N) (h : t.val = 0) : condFirst (grid0.coords t) := (hcondFirst t).mpr h
theorem cA3 (t : Fin cfg0.N) (h : t.val = 0) : ¬condMid (grid0.coords t) := fun hh => ((hcondMid t).mp hh).1 h
theorem cA4 (t : Fin cfg0.N) (h : t.val = 0) : ¬condLast (grid0.coords t) := fun hh => by have := (hcondLast t).mp hh; omega
theorem cB1 (t : Fin cfg0.N) (h0 : t.val ≠ 0) : ¬condFirst (grid0.coords t) := fun hh => h0 ((hcondFirst t).mp hh)
theorem cB3 (t : Fin cfg0.N) (h0 : t.val ≠ 0) (h7 : t.val ≠ 7) : condMid (grid0.coords t) := (hcondMid t).mpr ⟨h0, h7⟩
theorem cB4 (t : Fin cfg0.N) (h7 : t.val ≠ 7) : ¬condLast (grid0.coords t) := fun hh => h7 ((hcondLast t).mp hh)
theorem cC1 (t : Fin cfg0.N) (h7 : t.val = 7) : ¬condFirst (grid0.coords t) := fun hh => by have := (hcondFirst t).mp hh; omega
theorem cC3 (t : Fin cfg0.N) (h7 : t.val = 7) : ¬condMid (grid0.coords t) := fun hh => ((hcondMid t).mp hh).2 h7
theorem cC4 (t : Fin cfg0.N) (h7 : t.val = 7) : condLast (grid0.coords t) := (hcondLast t).mpr h7

/-! ## What the buffers hold after each point -/

/-- After the body at position `n`: the output window's buffer, the first scratch buffer, the second scratch buffer. -/
def outsAt (c : Dev nD) : (n : ℕ) → n < cfg0.N → Vec F S10000x128 .f32 × Vec F S10000x128 .bf16 × Vec F S10000x128 .bf16
  | 0, hn => (junk3,
      sout_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) scM1 (Memref.isWhole_whole _) (cA1 ⟨0, hn⟩ rfl) (cA3 ⟨0, hn⟩ rfl) (cA4 ⟨0, hn⟩ rfl) (iblk m c 0 ⟨0, hn⟩) (iblk m c 1 ⟨0, hn⟩) (iblk m c 2 ⟨0, hn⟩),
      sout_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) scM1 (Memref.isWhole_whole _) (cA1 ⟨0, hn⟩ rfl) (cA3 ⟨0, hn⟩ rfl) (cA4 ⟨0, hn⟩ rfl) (iblk m c 0 ⟨0, hn⟩) (iblk m c 1 ⟨0, hn⟩) (iblk m c 2 ⟨0, hn⟩))
  | n + 1, hn =>
    if h7 : n + 1 = 7 then
      (out_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) scM1 (Memref.isWhole_whole _) (cC1 ⟨n + 1, hn⟩ h7) (cC3 ⟨n + 1, hn⟩ h7) (cC4 ⟨n + 1, hn⟩ h7) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2,
        (outsAt c n (Nat.lt_of_succ_lt hn)).2.1, (outsAt c n (Nat.lt_of_succ_lt hn)).2.2)
    else
      (junk3, (outsAt c n (Nat.lt_of_succ_lt hn)).2.1,
        sout_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) scM1 (Memref.isWhole_whole _) (cB1 ⟨n + 1, hn⟩ (Nat.succ_ne_zero n)) (cB3 ⟨n + 1, hn⟩ (Nat.succ_ne_zero n) h7) (cB4 ⟨n + 1, hn⟩ h7) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)

theorem outsAt_A (c : Dev nD) (t : Fin cfg0.N) (h0 : t.val = 0) :
    outsAt m c t.val t.isLt = (junk3,
      sout_A_0 c (grid0.coords t) (ms0_0 t) (hs0_0 t) (ms0_1 t) (hs0_1 t) (ms0_2 t) (hs0_2 t) (ms0_3 t) (hs0_3 t) scM0 (Memref.isWhole_whole _) scM1 (Memref.isWhole_whole _) (cA1 t h0) (cA3 t h0) (cA4 t h0) (iblk m c 0 t) (iblk m c 1 t) (iblk m c 2 t),
      sout_A_1 c (grid0.coords t) (ms0_0 t) (hs0_0 t) (ms0_1 t) (hs0_1 t) (ms0_2 t) (hs0_2 t) (ms0_3 t) (hs0_3 t) scM0 (Memref.isWhole_whole _) scM1 (Memref.isWhole_whole _) (cA1 t h0) (cA3 t h0) (cA4 t h0) (iblk m c 0 t) (iblk m c 1 t) (iblk m c 2 t)) := by
  obtain ⟨n, hn⟩ := t
  cases n with
  | zero => exact rfl
  | succ n => exact absurd h0 (Nat.succ_ne_zero n)

theorem outsAt_B (c : Dev nD) (t : Fin cfg0.N) (h0 : t.val ≠ 0) (h7 : t.val ≠ 7) :
    outsAt m c t.val t.isLt = (junk3, (outsAt m c (t.val - 1) (Nat.lt_of_le_of_lt (Nat.sub_le _ _) t.isLt)).2.1,
      sout_B_1 c (grid0.coords t) (ms0_0 t) (hs0_0 t) (ms0_1 t) (hs0_1 t) (ms0_2 t) (hs0_2 t) (ms0_3 t) (hs0_3 t) scM0 (Memref.isWhole_whole _) scM1 (Memref.isWhole_whole _) (cB1 t h0) (cB3 t h0 h7) (cB4 t h7) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_neg h7).trans rfl

theorem outsAt_C (c : Dev nD) (t : Fin cfg0.N) (h7 : t.val = 7) :
    outsAt m c t.val t.isLt = (out_C_3 c (grid0.coords t) (ms0_0 t) (hs0_0 t) (ms0_1 t) (hs0_1 t) (ms0_2 t) (hs0_2 t) (ms0_3 t) (hs0_3 t) scM0 (Memref.isWhole_whole _) scM1 (Memref.isWhole_whole _) (cC1 t h7) (cC3 t h7) (cC4 t h7) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact (by exfalso; (try dsimp only at h7); omega)
  | succ n => exact (dif_pos h7).trans rfl

/-- The region invariant before position `n`: before the first point the two scratch buffers at anything; afterwards
    each at what the point before left in it. -/
def PhiS (c : Dev nD) : (n : ℕ) → n ≤ cfg0.N → sProp 𝕄
  | 0, _ => Phi0 c
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl

theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The pipeline's proof data -/

/-- The proof data on core `c`: the arrays as the region finds them; after the body each input window's buffer at
    its block and the output window's at `outsAt`; the invariant `PhiS`; the two windows on the array of `adj` hold
    one half of its share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]

/-- Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the input windows' buffers hold their blocks; the position says which of the three cases
    the point is in; that case's run applies, the invariant handing it the scratch buffers at what the point before
    left (at anything before the first point) and taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · rw [Dat.leavesExact_idle (dats m 0 c) 3 t (idleAt0_3 t (cA4 t h0)) (noFlush0_3 t (cA4 t h0))]
    rw [outsAt_A m c t h0]
    unfold sout_A_0 sout_A_1; (try dsimp only)
    rw [PhiS_castSucc m c t, PhiS_zero m c _ _ h0]; unfold Phi0
    iintro ⟨⟨HS0, HS1⟩, Ho, ⟨%d0, H0⟩, ⟨%d1, H1⟩, ⟨%d2, H2⟩, ⟨%d3, H3⟩⟩
    iapply ((kernelRun_A c (grid0.coords t) _ _ _ _ _ _ _ _ _ _ _ _ (cA1 t h0) (cA3 t h0) (cA4 t h0) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1]
    · isplitl [HS0]
      · unfold owns; iexists _; isplitr
        swap; · iexact HS0
        ipureintro; exact View.read_writes_of_cover _ _ _ _ _ (scover_A_0 c _ _ _ _ _ _ _ _ _ _ _ _ _ _ _ _ _ _ _)
      · unfold owns; iexists _; isplitr
        swap; · iexact HS1
        ipureintro; exact View.read_writes_of_cover _ _ _ _ _ (scover_A_1 c _ _ _ _ _ _ _ _ _ _ _ _ _ _ _ _ _ _ _)
    isplitl [Ho]; · iexact Ho
    isplitl [H0]; · iexact H0
    isplitl [H1]; · iexact H1
    isplitl [H2]; · iexact H2
    iexists _; iexact H3
  · by_cases h7 : t.val = 7
    · rw [show (dats m 0 c).leavesExact 3 t = owns (c : Thread nD τ) (ms0_3 t) fullShare ((dats m 0 c).after 3 t) from by
        unfold Dat.leavesExact; rw [liveAt0_3 t (cC4 t h7)], after0_3]
      rw [outsAt_C m c t h7]
      unfold out_C_3; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun_C c (grid0.coords t) _ _ _ _ _ _ _ _ _ _ _ _ (cC1 t h7) (cC3 t h7) (cC4 t h7) (iblk m c 0 t) (iblk m c 1 t) (iblk m c 2 t) _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_3 c _ _ _ _ _ _ _ _ _ _ _ _ _ _ _ _ _ _ _ _ _)
    · rw [Dat.leavesExact_idle (dats m 0 c) 3 t (idleAt0_3 t (cB4 t h7)) (noFlush0_3 t (cB4 t h7))]
      rw [outsAt_B m c t h0 h7]
      unfold sout_B_1; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun_B c (grid0.coords t) _ _ _ _ _ _ _ _ _ _ _ _ (cB1 t h0) (cB3 t h0 h7) (cB4 t h7) (iblk m c 0 t) (iblk m c 1 t) (iblk m c 2 t) _ _).2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1]
      · isplitl [HS0]; · iexact HS0
        unfold owns; iexists _; isplitr
        swap; · iexact HS1
        ipureintro; exact View.read_writes_of_cover _ _ _ _ _ (scover_B_1 c _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Phi0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two scratch buffers back, their contents forgotten. -/
theorem hout (c : Dev nD) : (dats m 0 c).Φ (Fin.last cfg0.N) ⊢ Phi0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega)]
  unfold Phi0
  iintro ⟨H0, H1⟩
  isplitl [H0]
  · iexists _; iexact H0
  iexists _; iexact H1

end Cert.Kernel.Hand

end
-- ==== Proof.K.Launch.lean ====
/-
  The program's one region, launched. Its first two windows read the same array (the first argument, walked strip
  by strip at two offsets), so the four windows stand on three buffers. At entry each of the three is held whole at
  the full share at the launch contents; the first argument's share is cut in two halves, one per window reading it,
  and the second argument and the result go whole to their windows. Nothing else of the unscoped memory exists, and
  the scoped memory outside the staging buffers is the two scratch buffers, which the region's invariant takes at
  entry and gives back at exit. From a body obligation over proof data with these shares, the run of the whole
  program ends with every window's array at what the data compute after the last write-back.
-/
import proofs.«117794_g6751688590051_cont_9to1c4b_755_29_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the four windows' arrays, each whole at the full share at the entry contents, make the
    windows' arrays at entry: the first argument's full share is cut into its left half, lent to window 0, and its
    right half, lent to window 1; the second argument and the result go whole to windows 2 and 3. -/
theorem arrays_of_bufs (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (hq2 : ∀ c, (dats 0 c).q 2 = fullShare)
    (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have hs0 : (dats 0 c).share (0 : Fin 4) = fullShare.left := (if_neg Bool.false_ne_true).trans (hq0 c)
  have hs1 : (dats 0 c).share (1 : Fin 4) = fullShare.right := (if_neg Bool.false_ne_true).trans (hq1 c)
  have hs2 : (dats 0 c).share (2 : Fin 4) = fullShare := (if_neg Bool.false_ne_true).trans (hq2 c)
  have hs3 : (dats 0 c).share (3 : Fin 4) = fullShare := if_pos rfl
  have hF : ∀ w, (dats 0 c).arrAt w 0 = V m c (Pipeline.arrRef spec0 w) := fun w => hA c w
  unfold Pipeline.arrBufs Dat.arrays
  rw [bigSep_eq_bigSepL_of_eq [main_arg0, main_arg1, main_v0] (by decide) (by decide), bigSep_W0]
  simp only [bigSepL_cons_cons, bigSepL_singleton]
  rw [hs0, hs1, hs2, hs3, (arr_whole0 0).set_eq_univ, (arr_whole0 2).set_eq_univ, (arr_whole0 3).set_eq_univ,
    hF (0 : Fin 4), hF (1 : Fin 4), hF (2 : Fin 4), hF (3 : Fin 4)]
  show iprop(_ ∗ _ ∗ _) ⊢ _
  iintro ⟨H0, H1, H2⟩
  ihave H0' := (pointsTo_share (PosShare.mem_left_op_right fullShare)).1 $$ H0
  icases H0' with ⟨Hl, Hr⟩
  isplitl [Hl]
  · iexact Hl
  isplitl [Hr]
  · iexact Hr
  isplitl [H1]
  · iexact H1
  · iexact H2

set_option backward.isDefEq.respectTransparency.types false in
/-- The run of the program from the launch memory, given proof data whose first two windows lend the two halves of
    the first argument's share and whose third lends the second argument whole, a body obligation over them, and an
    invariant that the two scratch buffers establish at entry and yield back at exit: every execution terminates
    with each window's array at the contents the data compute after the last point. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hbody : ∀ c, Pipeline.BodyObligationLoose (dats 0 c) (defs₀ (F := F)) Variants.none () Set.univ)
    (hin : ∀ c, Phi0 c ⊢ (dats 0 c).Φ 0) (hout : ∀ c, (dats 0 c).Φ (Fin.last cfg0.N) ⊢ Phi0 c) :
    θ_run (defs (F := F)) (onTc (τ := τ) (main (F := F))) (s₀ m ρ)
      (fun r => ∀ c : Dev nD, ∀ w : Fin cfg0.W, r.2.mem (((cfg0).spec w).arr.view.loc (c.tc : Thread nD τ)) = (dats 0 c).arrAt w cfg0.N) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := fun c b => m ((c : Thread nD τ).loc b))
    (hmain := Pipeline.hmain_region cfgs (0 : Fin 1) defs₀ Variants.none m main (fun c => rfl))
    (hsplit := arrays_of_bufs m dats hA hq0 hq1 hq2)
    (X := fun _ => iprop(emp)) (Y := fun _ => iprop(emp)) (Z := fun _ => iprop(emp))
    (hX := fun c => by rw [unscopedRest0_eq]; iintro -; isplitr <;> iempintro)
    (hin := fun c => by
      rw [Phi0_eq]
      exact (show iprop(emp ∗ Phi0 c) ⊢ Phi0 c from by iintro ⟨-, H⟩; iexact H).trans (hin c))
    (hout := fun c => by
      rw [Phi0_eq]
      refine (hout c).trans ?_
      iintro H
      isplitr
      · iempintro
      · iexact H)
    (QY := fun _ _ => True)
    (hY := fun c s' => by
      iintro ⟨-, -, HSI⟩; imodintro
      isplitr
      · ipureintro; trivial
      · iexact HSI)
    (hQ := fun _ h c w => (h c).1 w)

end Cert.Kernel.Hand

end
-- ==== Proof.K.Run.lean ====
/-
  The run of the whole program from the launch, and its frame: every weakly fair execution terminates without a
  fault, each array of the region ends at what the proof data compute, and the two argument arrays, which the
  region only reads, end as they began.
-/
import proofs.«117794_g6751688590051_cont_9to1c4b_755_29_alg».proof.Proof.K.Frame
import proofs.«117794_g6751688590051_cont_9to1c4b_755_29_alg».proof.Proof.K.Launch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: each array of the region ends at the proof data's `arrAt`. -/
theorem run_main : θ_run (defs (F := F)) (onTc (τ := τ) (main (F := F))) (s₀ m ρ)
    (fun r => ∀ c : Dev nD, ∀ w : Fin cfg0.W, r.2.mem (((cfg0).spec w).arr.view.loc (c.tc : Thread nD τ)) = (dats m 0 c).arrAt w cfg0.N) :=
  run_of m ρ (dats m) (A_eq m) (fun _ => rfl) (fun _ => rfl) (fun _ => rfl) (fun _ _ => rfl)
    (fun c => (body_obligation m c).loose) (hin m) (hout m)

/-- The frame: the two argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 0).trans (((dats m 0 c).arrAt_in 0 rfl _).trans (A_eq m c 0)),
     ((h c) 2).trans (((dats m 0 c).arrAt_in 2 rfl _).trans (A_eq m c 2))⟩) (run_main m ρ)

end Cert.Kernel.Hand

end
-- ==== Proof.KI.Base.lean ====
/-
  What every later module of this program's frame proof is stated over: the arrays as the region finds them, the
  blocks the windows stage, the two scratch buffers (the 16-bit copy of the embeddings, kept from the first grid
  point on, and the 16-bit running total), the conditions of the body's four branches in closed form over the 8
  grid points, where the output window is idle, and what the region is handed besides its windows: the two
  scratch buffers, each whole at some contents.
-/
import proofs.«117794_g6751688590051_cont_9to1c4b_755_29_alg».proof.Proof.Gen.KernelIdeal.Launch
import proofs.«117794_g6751688590051_cont_9to1c4b_755_29_alg».proof.Proof.Gen.KernelIdeal.Skeleton
import proofs.«117794_g6751688590051_cont_9to1c4b_755_29_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory (no host operation runs before it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch buffers: the 16-bit copy of the embeddings, and the 16-bit running total. -/
abbrev scM0 : Memref sig .tc .vmem S10000x128 .bf16 := Memref.whole cc0_scratch0
abbrev scM1 : Memref sig .tc .vmem S10000x128 .bf16 := Memref.whole cc0_scratch1

/-- Each window's current staging memref at point `t`, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)

/-- What the region is handed besides its windows: the two scratch buffers, each whole at some contents. -/
def Phi0 (c : Dev nD) : sProp 𝕄 :=
  iprop((∃ d, owns (c : Thread nD τ) scM0 fullShare d) ∗ (∃ d, owns (c : Thread nD τ) scM1 fullShare d))

theorem Phi0_eq (c : Dev nD) :
    (Pipeline.scopedRest (Ix := Unit) (Name := ℕ) (U := UR sig nD τ) (Lvl := ℕ) (Val := Elt F) spec0 c : sProp 𝕄) = Phi0 c := by
  unfold Phi0; rw [scopedRest0_eq]; simp only [scM0, scM1, owns_whole]; try rfl

/-! ## The body's branch conditions, decided over the grid -/

/-- The first point: the copy of the embeddings is made and the running total is started. -/
abbrev condFirst (i : grid0.Coords) : Prop :=
  (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- A middle point: the running total is added to. -/
abbrev condMid (i : grid0.Coords) : Prop :=
  (Scalar.cmpi .ne (Scalar.extui (Scalar.andi (Scalar.cmpi .ne (BitVec.ofNat 32 (i 0).val) 0#32) (Scalar.cmpi .ne (BitVec.ofNat 32 (i 0).val) 7#32))) 0#32) = 1#1
theorem hcondMid : ∀ t : Fin cfg0.N, condMid (grid0.coords t) ↔ (t.val ≠ 0 ∧ t.val ≠ 7) :=
  (by decide +kernel : ∀ t : Fin grid0.N, condMid (grid0.coords t) ↔ (t.val ≠ 0 ∧ t.val ≠ 7))

/-- The last point: the result is written. -/
abbrev condLast (i : grid0.Coords) : Prop := k0_cond4 i = 1#1
theorem hcondLast : ∀ t : Fin cfg0.N, condLast (grid0.coords t) ↔ t.val = 7 :=
  (by decide +kernel : ∀ t : Fin grid0.N, condLast (grid0.coords t) ↔ t.val = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle, and not written back, at every point but the last. -/
theorem idleAt0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem liveAt0_3 : ∀ t : Fin cfg0.N, condLast (grid0.coords t) → cfg0.idle 3 (grid0.coords t) = false := by decide +kernel

end Cert.KernelIdeal.Hand

end
-- ==== Proof.KI.RunA.lean ====
import proofs.«117794_g6751688590051_cont_9to1c4b_755_29_alg».proof.Proof.KI.Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first grid point, on whole memrefs: the two strips, the embeddings' window and the idle output
    window are handed back as found; the 16-bit copy of the embeddings is stored into the first scratch buffer and the
    point's contribution into the second, whatever they held; the pieces the stores leave are found by the run. -/
noncomputable def kernelRun_A (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i)
    (x1 x2 x3 : Vec F S10000x128 .f32) :
    Σ' (LS0 : List (View.Piece (Elt F) S10000x128 .bf16)), { LS1 : List (View.Piece (Elt F) S10000x128 .bf16) //
      ∀ (xi4 : Vec F S10000x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare xi4 ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3
                ∗ owns (c : Thread nD τ) arg4 fullShare xi4
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, ?_, fun xi4 E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3
    obtain rfl := harg4.eq_unread hf4
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Hand

end
-- ==== Proof.KI.RunB.lean ====
import proofs.«117794_g6751688590051_cont_9to1c4b_755_29_alg».proof.Proof.KI.Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle grid point, on whole memrefs: the two strips, the embeddings' window and the idle output
    window are handed back as found, the 16-bit copy of the embeddings is read and kept, and the running total is
    read and stored back with the point's contribution added; the pieces the store leaves are found by the run. -/
noncomputable def kernelRun_B (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i)
    (x1 x2 x3 : Vec F S10000x128 .f32) (xs0 xs1 : Vec F S10000x128 .bf16) :
    { LS1 : List (View.Piece (Elt F) S10000x128 .bf16) //
      ∀ (xi4 : Vec F S10000x128 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare xi4 ∗ owns (c : Thread nD τ) arg5 fullShare xs0 ∗ owns (c : Thread nD τ) arg6 fullShare xs1
            ∗ (iprop(owns (c : Thread nD τ) arg1 fullShare x1 ∗ owns (c : Thread nD τ) arg2 fullShare x2 ∗ owns (c : Thread nD τ) arg3 fullShare x3
                ∗ owns (c : Thread nD τ) arg4 fullShare xi4 ∗ owns (c : Thread nD τ) arg5 fullShare xs0
                ∗ (∃ f, arg6.view.loc (c : Thread nD τ) ↦[arg6.view.set]{fullShare} arg6.view.writes (Elt F) f LS1)) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun xi4 E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.KernelIdeal.Hand

end
-- ==== Proof.KI.RunC.lean ====
import proofs.«117794_g6751688590051_cont_9to1c4b_755_29_alg».proof.Proof.KI.Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last grid point, on whole memrefs: the two strips and the embeddings' window are handed back as
    found, the two scratch buffers are read and kept, and the output window, whatever it held, is stored whole with
    the running total plus the point's contribution; the pieces the store leaves are found by the run. -/
noncomputable def kernelRun_C (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i)
    (x1 x2 x3 : Vec F S10000x128 .f32) (xs0 xs1 : Vec F S10000x128 .bf16) :
    { L4 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs0 ∗ owns (c : Thread nD τ) arg6 fullShare xs1
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs0 ∗ owns (c : Thread nD τ) arg6 fullShare xs1) -∗ K ⟨⟩))
          ⊢ wp frame (wpE (defs₀ (F := F)) Variants.none c none) E (cc0__hgnn_kernel i arg1 harg1 arg2 harg2 arg3 harg3 arg4 harg4 arg5 harg5 arg6 harg6) K } := by
  refine ⟨?_, fun E K => ?run⟩
  case run =>
    simp only [cc0__hgnn_kernel_eq_skeleton]; unfold cc0__hgnn_kernel_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf1; obtain rfl := harg2.eq_unread hf2; obtain rfl := harg3.eq_unread hf3
    obtain rfl := harg5.eq_unread hf5; obtain rfl := harg6.eq_unread hf6
    sl_exec (disch := first | exact hc1 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    iexists _; isplitr; · ipureintro; exact harg6.read_unread _
    iexact H6

end Cert.KernelIdeal.Hand

end
-- ==== Proof.KI.Frame.lean ====
/-
  The frame of the program's one region, point by point.

  The grid has 8 points. At the first the body copies the embeddings (16-bit) into the first scratch buffer and
  starts the running total in the second with the point's contribution; at each of the six middle points it adds
  the point's contribution to the running total; at the last it writes the running total plus the last
  contribution into the output window, which the pipeline then writes back. `outsAt` names, by recursion on the
  point, what the output window's buffer and the two scratch buffers hold after each point; the region invariant
  `PhiS` carries the two scratch buffers at those contents from point to point; the proof data `dats` hold each
  input window at its block (the two strips' windows share the array of `adj`, one half of its share each), and
  the body obligation is, per case, that case's run.
-/
import proofs.«117794_g6751688590051_cont_9to1c4b_755_29_alg».proof.Proof.KI.RunA
import proofs.«117794_g6751688590051_cont_9to1c4b_755_29_alg».proof.Proof.KI.RunB
import proofs.«117794_g6751688590051_cont_9to1c4b_755_29_alg».proof.Proof.KI.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Views through which the contents of the output window's buffer and of the two scratch buffers are stated. -/
abbrev VO3 : View sig .tc .vmem S10000x128 .f32 := (Memref.whole cc0_stg3_0 : Memref sig .tc .vmem S10000x128 .f32).view
abbrev VS0 : View sig .tc .vmem S10000x128 .bf16 := scM0.view
abbrev VS1 : View sig .tc .vmem S10000x128 .bf16 := scM1.view

/-- Contents nothing consults: the output window's buffer at a point where the body stores nothing into it. -/
def junk3 : Vec F S10000x128 .f32 := VO3.read (Elt F) VO3.junk

/-! ## What each case leaves -/

theorem scover_A_0 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) (y : S10000x128.Idx) :
    ∃ pc ∈ (kernelRun_A c i arg1 harg1 arg2 harg2 arg3 harg3 arg4 harg4 arg5 harg5 arg6 harg6 hc1 hc3 hc4 x1 x2 x3).1, y ∈ pc.1.set :=
  View.cover_of_tiledL (kernelRun_A c i arg1 harg1 arg2 harg2 arg3 harg3 arg4 harg4 arg5 harg5 arg6 harg6 hc1 hc3 hc4 x1 x2 x3).1 S10000x128.size (by sl_kernel_rfl) y

/-- What the first point leaves in the first scratch buffer. -/
def sout_A_0 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) : Vec F S10000x128 .bf16 :=
  VS0.read (Elt F) (VS0.writes (Elt F) VS0.junk (kernelRun_A c i arg1 harg1 arg2 harg2 arg3 harg3 arg4 harg4 arg5 harg5 arg6 harg6 hc1 hc3 hc4 x1 x2 x3).1)

theorem scover_A_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) (y : S10000x128.Idx) :
    ∃ pc ∈ (kernelRun_A c i arg1 harg1 arg2 harg2 arg3 harg3 arg4 harg4 arg5 harg5 arg6 harg6 hc1 hc3 hc4 x1 x2 x3).2.1, y ∈ pc.1.set :=
  View.cover_of_tiledL (kernelRun_A c i arg1 harg1 arg2 harg2 arg3 harg3 arg4 harg4 arg5 harg5 arg6 harg6 hc1 hc3 hc4 x1 x2 x3).2.1 S10000x128.size (by sl_kernel_rfl) y

/-- What the first point leaves in the second scratch buffer. -/
def sout_A_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) : Vec F S10000x128 .bf16 :=
  VS1.read (Elt F) (VS1.writes (Elt F) VS1.junk (kernelRun_A c i arg1 harg1 arg2 harg2 arg3 harg3 arg4 harg4 arg5 harg5 arg6 harg6 hc1 hc3 hc4 x1 x2 x3).2.1)

theorem scover_B_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i) (x1 x2 x3 : Vec F S10000x128 .f32) (xs0 xs1 : Vec F S10000x128 .bf16) (y : S10000x128.Idx) :
    ∃ pc ∈ (kernelRun_B c i arg1 harg1 arg2 harg2 arg3 harg3 arg4 harg4 arg5 harg5 arg6 harg6 hc1 hc3 hc4 x1 x2 x3 xs0 xs1).1, y ∈ pc.1.set :=
  View.cover_of_tiledL (kernelRun_B c i arg1 harg1 arg2 harg2 arg3 harg3 arg4 harg4 arg5 harg5 arg6 harg6 hc1 hc3 hc4 x1 x2 x3 xs0 xs1).1 S10000x128.size (by sl_kernel_rfl) y

/-- What a middle point leaves in the second scratch buffer. -/
def sout_B_1 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i) (x1 x2 x3 : Vec F S10000x128 .f32) (xs0 xs1 : Vec F S10000x128 .bf16) : Vec F S10000x128 .bf16 :=
  VS1.read (Elt F) (VS1.writes (Elt F) VS1.junk (kernelRun_B c i arg1 harg1 arg2 harg2 arg3 harg3 arg4 harg4 arg5 harg5 arg6 harg6 hc1 hc3 hc4 x1 x2 x3 xs0 xs1).1)

theorem cover_C_3 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i) (x1 x2 x3 : Vec F S10000x128 .f32) (xs0 xs1 : Vec F S10000x128 .bf16) (y : S10000x128.Idx) :
    ∃ pc ∈ (kernelRun_C c i arg1 harg1 arg2 harg2 arg3 harg3 arg4 harg4 arg5 harg5 arg6 harg6 hc1 hc3 hc4 x1 x2 x3 xs0 xs1).1, y ∈ pc.1.set :=
  View.cover_of_tiledL (kernelRun_C c i arg1 harg1 arg2 harg2 arg3 harg3 arg4 harg4 arg5 harg5 arg6 harg6 hc1 hc3 hc4 x1 x2 x3 xs0 xs1).1 S10000x128.size (by sl_kernel_rfl) y

/-- What the last point leaves in the output window's buffer. -/
def out_C_3 (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i) (x1 x2 x3 : Vec F S10000x128 .f32) (xs0 xs1 : Vec F S10000x128 .bf16) : Vec F S10000x128 .f32 :=
  VO3.read (Elt F) (VO3.writes (Elt F) VO3.junk (kernelRun_C c i arg1 harg1 arg2 harg2 arg3 harg3 arg4 harg4 arg5 harg5 arg6 harg6 hc1 hc3 hc4 x1 x2 x3 xs0 xs1).1)

/-! ## The three cases' conditions at a point, from its position -/

theorem cA1 (t : Fin cfg0.N) (h : t.val = 0) : condFirst (grid0.coords t) := (hcondFirst t).mpr h
theorem cA3 (t : Fin cfg0.N) (h : t.val = 0) : ¬condMid (grid0.coords t) := fun hh => ((hcondMid t).mp hh).1 h
theorem cA4 (t : Fin cfg0.N) (h : t.val = 0) : ¬condLast (grid0.coords t) := fun hh => by have := (hcondLast t).mp hh; omega
theorem cB1 (t : Fin cfg0.N) (h0 : t.val ≠ 0) : ¬condFirst (grid0.coords t) := fun hh => h0 ((hcondFirst t).mp hh)
theorem cB3 (t : Fin cfg0.N) (h0 : t.val ≠ 0) (h7 : t.val ≠ 7) : condMid (grid0.coords t) := (hcondMid t).mpr ⟨h0, h7⟩
theorem cB4 (t : Fin cfg0.N) (h7 : t.val ≠ 7) : ¬condLast (grid0.coords t) := fun hh => h7 ((hcondLast t).mp hh)
theorem cC1 (t : Fin cfg0.N) (h7 : t.val = 7) : ¬condFirst (grid0.coords t) := fun hh => by have := (hcondFirst t).mp hh; omega
theorem cC3 (t : Fin cfg0.N) (h7 : t.val = 7) : ¬condMid (grid0.coords t) := fun hh => ((hcondMid t).mp hh).2 h7
theorem cC4 (t : Fin cfg0.N) (h7 : t.val = 7) : condLast (grid0.coords t) := (hcondLast t).mpr h7

/-! ## What the buffers hold after each point -/

/-- After the body at position `n`: the output window's buffer, the first scratch buffer, the second scratch buffer. -/
def outsAt (c : Dev nD) : (n : ℕ) → n < cfg0.N → Vec F S10000x128 .f32 × Vec F S10000x128 .bf16 × Vec F S10000x128 .bf16
  | 0, hn => (junk3,
      sout_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) scM1 (Memref.isWhole_whole _) (cA1 ⟨0, hn⟩ rfl) (cA3 ⟨0, hn⟩ rfl) (cA4 ⟨0, hn⟩ rfl) (iblk m c 0 ⟨0, hn⟩) (iblk m c 1 ⟨0, hn⟩) (iblk m c 2 ⟨0, hn⟩),
      sout_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) scM1 (Memref.isWhole_whole _) (cA1 ⟨0, hn⟩ rfl) (cA3 ⟨0, hn⟩ rfl) (cA4 ⟨0, hn⟩ rfl) (iblk m c 0 ⟨0, hn⟩) (iblk m c 1 ⟨0, hn⟩) (iblk m c 2 ⟨0, hn⟩))
  | n + 1, hn =>
    if h7 : n + 1 = 7 then
      (out_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) scM1 (Memref.isWhole_whole _) (cC1 ⟨n + 1, hn⟩ h7) (cC3 ⟨n + 1, hn⟩ h7) (cC4 ⟨n + 1, hn⟩ h7) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2,
        (outsAt c n (Nat.lt_of_succ_lt hn)).2.1, (outsAt c n (Nat.lt_of_succ_lt hn)).2.2)
    else
      (junk3, (outsAt c n (Nat.lt_of_succ_lt hn)).2.1,
        sout_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) scM1 (Memref.isWhole_whole _) (cB1 ⟨n + 1, hn⟩ (Nat.succ_ne_zero n)) (cB3 ⟨n + 1, hn⟩ (Nat.succ_ne_zero n) h7) (cB4 ⟨n + 1, hn⟩ h7) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)

theorem outsAt_A (c : Dev nD) (t : Fin cfg0.N) (h0 : t.val = 0) :
    outsAt m c t.val t.isLt = (junk3,
      sout_A_0 c (grid0.coords t) (ms0_0 t) (hs0_0 t) (ms0_1 t) (hs0_1 t) (ms0_2 t) (hs0_2 t) (ms0_3 t) (hs0_3 t) scM0 (Memref.isWhole_whole _) scM1 (Memref.isWhole_whole _) (cA1 t h0) (cA3 t h0) (cA4 t h0) (iblk m c 0 t) (iblk m c 1 t) (iblk m c 2 t),
      sout_A_1 c (grid0.coords t) (ms0_0 t) (hs0_0 t) (ms0_1 t) (hs0_1 t) (ms0_2 t) (hs0_2 t) (ms0_3 t) (hs0_3 t) scM0 (Memref.isWhole_whole _) scM1 (Memref.isWhole_whole _) (cA1 t h0) (cA3 t h0) (cA4 t h0) (iblk m c 0 t) (iblk m c 1 t) (iblk m c 2 t)) := by
  obtain ⟨n, hn⟩ := t
  cases n with
  | zero => exact rfl
  | succ n => exact absurd h0 (Nat.succ_ne_zero n)

theorem outsAt_B (c : Dev nD) (t : Fin cfg0.N) (h0 : t.val ≠ 0) (h7 : t.val ≠ 7) :
    outsAt m c t.val t.isLt = (junk3, (outsAt m c (t.val - 1) (Nat.lt_of_le_of_lt (Nat.sub_le _ _) t.isLt)).2.1,
      sout_B_1 c (grid0.coords t) (ms0_0 t) (hs0_0 t) (ms0_1 t) (hs0_1 t) (ms0_2 t) (hs0_2 t) (ms0_3 t) (hs0_3 t) scM0 (Memref.isWhole_whole _) scM1 (Memref.isWhole_whole _) (cB1 t h0) (cB3 t h0 h7) (cB4 t h7) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd rfl h0
  | succ n => exact (dif_neg h7).trans rfl

theorem outsAt_C (c : Dev nD) (t : Fin cfg0.N) (h7 : t.val = 7) :
    outsAt m c t.val t.isLt = (out_C_3 c (grid0.coords t) (ms0_0 t) (hs0_0 t) (ms0_1 t) (hs0_1 t) (ms0_2 t) (hs0_2 t) (ms0_3 t) (hs0_3 t) scM0 (Memref.isWhole_whole _) scM1 (Memref.isWhole_whole _) (cC1 t h7) (cC3 t h7) (cC4 t h7) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact (by exfalso; (try dsimp only at h7); omega)
  | succ n => exact (dif_pos h7).trans rfl

/-- The region invariant before position `n`: before the first point the two scratch buffers at anything; afterwards
    each at what the point before left in it. -/
def PhiS (c : Dev nD) : (n : ℕ) → n ≤ cfg0.N → sProp 𝕄
  | 0, _ => Phi0 c
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl

theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The pipeline's proof data -/

/-- The proof data on core `c`: the arrays as the region finds them; after the body each input window's buffer at
    its block and the output window's at `outsAt`; the invariant `PhiS`; the two windows on the array of `adj` hold
    one half of its share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]

/-- Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the input windows' buffers hold their blocks; the position says which of the three cases
    the point is in; that case's run applies, the invariant handing it the scratch buffers at what the point before
    left (at anything before the first point) and taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · rw [Dat.leavesExact_idle (dats m 0 c) 3 t (idleAt0_3 t (cA4 t h0)) (noFlush0_3 t (cA4 t h0))]
    rw [outsAt_A m c t h0]
    unfold sout_A_0 sout_A_1; (try dsimp only)
    rw [PhiS_castSucc m c t, PhiS_zero m c _ _ h0]; unfold Phi0
    iintro ⟨⟨HS0, HS1⟩, Ho, ⟨%d0, H0⟩, ⟨%d1, H1⟩, ⟨%d2, H2⟩, ⟨%d3, H3⟩⟩
    iapply ((kernelRun_A c (grid0.coords t) _ _ _ _ _ _ _ _ _ _ _ _ (cA1 t h0) (cA3 t h0) (cA4 t h0) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1]
    · isplitl [HS0]
      · unfold owns; iexists _; isplitr
        swap; · iexact HS0
        ipureintro; exact View.read_writes_of_cover _ _ _ _ _ (scover_A_0 c _ _ _ _ _ _ _ _ _ _ _ _ _ _ _ _ _ _ _)
      · unfold owns; iexists _; isplitr
        swap; · iexact HS1
        ipureintro; exact View.read_writes_of_cover _ _ _ _ _ (scover_A_1 c _ _ _ _ _ _ _ _ _ _ _ _ _ _ _ _ _ _ _)
    isplitl [Ho]; · iexact Ho
    isplitl [H0]; · iexact H0
    isplitl [H1]; · iexact H1
    isplitl [H2]; · iexact H2
    iexists _; iexact H3
  · by_cases h7 : t.val = 7
    · rw [show (dats m 0 c).leavesExact 3 t = owns (c : Thread nD τ) (ms0_3 t) fullShare ((dats m 0 c).after 3 t) from by
        unfold Dat.leavesExact; rw [liveAt0_3 t (cC4 t h7)], after0_3]
      rw [outsAt_C m c t h7]
      unfold out_C_3; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun_C c (grid0.coords t) _ _ _ _ _ _ _ _ _ _ _ _ (cC1 t h7) (cC3 t h7) (cC4 t h7) (iblk m c 0 t) (iblk m c 1 t) (iblk m c 2 t) _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C_3 c _ _ _ _ _ _ _ _ _ _ _ _ _ _ _ _ _ _ _ _ _)
    · rw [Dat.leavesExact_idle (dats m 0 c) 3 t (idleAt0_3 t (cB4 t h7)) (noFlush0_3 t (cB4 t h7))]
      rw [outsAt_B m c t h0 h7]
      unfold sout_B_1; (try dsimp only)
      rw [PhiS_castSucc m c t, PhiS_pos m c _ _ h0]
      iintro ⟨⟨HS0, HS1⟩, Ho, ⟨%d0, H0⟩, ⟨%d1, H1⟩, ⟨%d2, H2⟩, ⟨%d3, H3⟩⟩
      iapply ((kernelRun_B c (grid0.coords t) _ _ _ _ _ _ _ _ _ _ _ _ (cB1 t h0) (cB3 t h0 h7) (cB4 t h7) (iblk m c 0 t) (iblk m c 1 t) (iblk m c 2 t) _ _).2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1]
      · isplitl [HS0]; · iexact HS0
        unfold owns; iexists _; isplitr
        swap; · iexact HS1
        ipureintro; exact View.read_writes_of_cover _ _ _ _ _ (scover_B_1 c _ _ _ _ _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Phi0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the two scratch buffers back, their contents forgotten. -/
theorem hout (c : Dev nD) : (dats m 0 c).Φ (Fin.last cfg0.N) ⊢ Phi0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega)]
  unfold Phi0
  iintro ⟨H0, H1⟩
  isplitl [H0]
  · iexists _; iexact H0
  iexists _; iexact H1

end Cert.KernelIdeal.Hand

end
-- ==== Proof.KI.Launch.lean ====
/-
  The program's one region, launched. Its first two windows read the same array (the first argument, walked strip
  by strip at two offsets), so the four windows stand on three buffers. At entry each of the three is held whole at
  the full share at the launch contents; the first argument's share is cut in two halves, one per window reading it,
  and the second argument and the result go whole to their windows. Nothing else of the unscoped memory exists, and
  the scoped memory outside the staging buffers is the two scratch buffers, which the region's invariant takes at
  entry and gives back at exit. From a body obligation over proof data with these shares, the run of the whole
  program ends with every window's array at what the data compute after the last write-back.
-/
import proofs.«117794_g6751688590051_cont_9to1c4b_755_29_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the four windows' arrays, each whole at the full share at the entry contents, make the
    windows' arrays at entry: the first argument's full share is cut into its left half, lent to window 0, and its
    right half, lent to window 1; the second argument and the result go whole to windows 2 and 3. -/
theorem arrays_of_bufs (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (hq2 : ∀ c, (dats 0 c).q 2 = fullShare)
    (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have hs0 : (dats 0 c).share (0 : Fin 4) = fullShare.left := (if_neg Bool.false_ne_true).trans (hq0 c)
  have hs1 : (dats 0 c).share (1 : Fin 4) = fullShare.right := (if_neg Bool.false_ne_true).trans (hq1 c)
  have hs2 : (dats 0 c).share (2 : Fin 4) = fullShare := (if_neg Bool.false_ne_true).trans (hq2 c)
  have hs3 : (dats 0 c).share (3 : Fin 4) = fullShare := if_pos rfl
  have hF : ∀ w, (dats 0 c).arrAt w 0 = V m c (Pipeline.arrRef spec0 w) := fun w => hA c w
  unfold Pipeline.arrBufs Dat.arrays
  rw [bigSep_eq_bigSepL_of_eq [main_arg0, main_arg1, main_v0] (by decide) (by decide), bigSep_W0]
  simp only [bigSepL_cons_cons, bigSepL_singleton]
  rw [hs0, hs1, hs2, hs3, (arr_whole0 0).set_eq_univ, (arr_whole0 2).set_eq_univ, (arr_whole0 3).set_eq_univ,
    hF (0 : Fin 4), hF (1 : Fin 4), hF (2 : Fin 4), hF (3 : Fin 4)]
  show iprop(_ ∗ _ ∗ _) ⊢ _
  iintro ⟨H0, H1, H2⟩
  ihave H0' := (pointsTo_share (PosShare.mem_left_op_right fullShare)).1 $$ H0
  icases H0' with ⟨Hl, Hr⟩
  isplitl [Hl]
  · iexact Hl
  isplitl [Hr]
  · iexact Hr
  isplitl [H1]
  · iexact H1
  · iexact H2

set_option backward.isDefEq.respectTransparency.types false in
/-- The run of the program from the launch memory, given proof data whose first two windows lend the two halves of
    the first argument's share and whose third lends the second argument whole, a body obligation over them, and an
    invariant that the two scratch buffers establish at entry and yield back at exit: every execution terminates
    with each window's array at the contents the data compute after the last point. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hbody : ∀ c, Pipeline.BodyObligationLoose (dats 0 c) (defs₀ (F := F)) Variants.none () Set.univ)
    (hin : ∀ c, Phi0 c ⊢ (dats 0 c).Φ 0) (hout : ∀ c, (dats 0 c).Φ (Fin.last cfg0.N) ⊢ Phi0 c) :
    θ_run (defs (F := F)) (onTc (τ := τ) (main (F := F))) (s₀ m ρ)
      (fun r => ∀ c : Dev nD, ∀ w : Fin cfg0.W, r.2.mem (((cfg0).spec w).arr.view.loc (c.tc : Thread nD τ)) = (dats 0 c).arrAt w cfg0.N) :=
  Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := BI.Entails.refl _)
    (V := fun c b => m ((c : Thread nD τ).loc b))
    (hmain := Pipeline.hmain_region cfgs (0 : Fin 1) defs₀ Variants.none m main (fun c => rfl))
    (hsplit := arrays_of_bufs m dats hA hq0 hq1 hq2)
    (X := fun _ => iprop(emp)) (Y := fun _ => iprop(emp)) (Z := fun _ => iprop(emp))
    (hX := fun c => by rw [unscopedRest0_eq]; iintro -; isplitr <;> iempintro)
    (hin := fun c => by
      rw [Phi0_eq]
      exact (show iprop(emp ∗ Phi0 c) ⊢ Phi0 c from by iintro ⟨-, H⟩; iexact H).trans (hin c))
    (hout := fun c => by
      rw [Phi0_eq]
      refine (hout c).trans ?_
      iintro H
      isplitr
      · iempintro
      · iexact H)
    (QY := fun _ _ => True)
    (hY := fun c s' => by
      iintro ⟨-, -, HSI⟩; imodintro
      isplitr
      · ipureintro; trivial
      · iexact HSI)
    (hQ := fun _ h c w => (h c).1 w)

end Cert.KernelIdeal.Hand

end
-- ==== Proof.KI.Run.lean ====
/-
  The run of the whole program from the launch, and its frame: every weakly fair execution terminates without a
  fault, each array of the region ends at what the proof data compute, and the two argument arrays, which the
  region only reads, end as they began.
-/
import proofs.«117794_g6751688590051_cont_9to1c4b_755_29_alg».proof.Proof.KI.Frame
import proofs.«117794_g6751688590051_cont_9to1c4b_755_29_alg».proof.Proof.KI.Launch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: each array of the region ends at the proof data's `arrAt`. -/
theorem run_main : θ_run (defs (F := F)) (onTc (τ := τ) (main (F := F))) (s₀ m ρ)
    (fun r => ∀ c : Dev nD, ∀ w : Fin cfg0.W, r.2.mem (((cfg0).spec w).arr.view.loc (c.tc : Thread nD τ)) = (dats m 0 c).arrAt w cfg0.N) :=
  run_of m ρ (dats m) (A_eq m) (fun _ => rfl) (fun _ => rfl) (fun _ => rfl) (fun _ _ => rfl)
    (fun c => (body_obligation m c).loose) (hin m) (hout m)

/-- The frame: the two argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 0).trans (((dats m 0 c).arrAt_in 0 rfl _).trans (A_eq m c 0)),
     ((h c) 2).trans (((dats m 0 c).arrAt_in 2 rfl _).trans (A_eq m c 2))⟩) (run_main m ρ)

end Cert.KernelIdeal.Hand

end
-- ==== Proof.KI.Pieces.lean ====
/-
  What each case of the body leaves in a buffer is the body's arithmetic applied to what the case loaded.

  Every store of the body writes a whole buffer, so the pieces a case's run found for a buffer, read back, are the
  last payload stored there; and every load reads a whole buffer, so each payload's operands are the contents the
  case was handed, or, for the first scratch buffer at the first grid point, the payload just stored into it.
-/
import proofs.«117794_g6751688590051_cont_9to1c4b_755_29_alg».proof.Proof.KI.Frame
import Idealize.ShloMosaic.Lib.Pipeline.Value
set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every load and store of the body: zero on both axes. -/
theorem offsets_zero : (![0, 0] : Fin 2 → Nat) = fun _ => 0 := funext fun a => by fin_cases a <;> rfl

/-- The first grid point leaves in the first scratch buffer the 16-bit copy of the embeddings' block. -/
theorem sout_A_0_eq (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) :
    sout_A_0 c i arg1 harg1 arg2 harg2 arg3 harg3 arg4 harg4 arg5 harg5 arg6 harg6 hc1 hc3 hc4 x1 x2 x3 = k0_pay1 x3 := by
  unfold sout_A_0
  rw [View.read_writes_eq_canon _ _ _ (scover_A_0 c i arg1 harg1 arg2 harg2 arg3 harg3 arg4 harg4 arg5 harg5 arg6 harg6 hc1 hc3 hc4 x1 x2 x3)]
  unfold kernelRun_A
  dsimp only
  sl_unfold_words
  rw [View.canon_unit_zero offsets_zero]
  simp only [View.readAt_eq_ld, harg3.read_unread, View.ld_unit_zero (S := S10000x128) offsets_zero]

/-- The first grid point leaves in the second scratch buffer the two strips' products added, computed from the copy
    of the embeddings it has just stored and read back. -/
theorem sout_A_1_eq (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : condFirst i) (hc3 : ¬condMid i) (hc4 : ¬condLast i) (x1 x2 x3 : Vec F S10000x128 .f32) :
    sout_A_1 c i arg1 harg1 arg2 harg2 arg3 harg3 arg4 harg4 arg5 harg5 arg6 harg6 hc1 hc3 hc4 x1 x2 x3 = k0_pay5 (k0_pay1 x3) x1 x2 := by
  unfold sout_A_1
  rw [View.read_writes_eq_canon _ _ _ (scover_A_1 c i arg1 harg1 arg2 harg2 arg3 harg3 arg4 harg4 arg5 harg5 arg6 harg6 hc1 hc3 hc4 x1 x2 x3)]
  unfold kernelRun_A
  dsimp only
  sl_unfold_words
  rw [View.canon_unit_zero (S := S10000x128) offsets_zero, View.readCov_unit_zero (S := S10000x128) _ offsets_zero]
  simp only [View.readAt_eq_ld, harg1.read_unread, harg2.read_unread, harg3.read_unread,
    View.ld_unit_zero (S := S10000x128) offsets_zero]

/-- A middle grid point leaves in the second scratch buffer the running total plus the two strips' products. -/
theorem sout_B_1_eq (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : condMid i) (hc4 : ¬condLast i) (x1 x2 x3 : Vec F S10000x128 .f32) (xs0 xs1 : Vec F S10000x128 .bf16) :
    sout_B_1 c i arg1 harg1 arg2 harg2 arg3 harg3 arg4 harg4 arg5 harg5 arg6 harg6 hc1 hc3 hc4 x1 x2 x3 xs0 xs1 = k0_pay6 xs0 x1 x2 xs1 := by
  unfold sout_B_1
  rw [View.read_writes_eq_canon _ _ _ (scover_B_1 c i arg1 harg1 arg2 harg2 arg3 harg3 arg4 harg4 arg5 harg5 arg6 harg6 hc1 hc3 hc4 x1 x2 x3 xs0 xs1)]
  unfold kernelRun_B
  dsimp only
  sl_unfold_words
  rw [View.canon_unit_zero (S := S10000x128) offsets_zero]
  simp only [View.readAt_eq_ld, harg1.read_unread, harg2.read_unread, harg5.read_unread, harg6.read_unread,
    View.ld_unit_zero (S := S10000x128) offsets_zero]

/-- The last grid point leaves in the output window's buffer the running total plus the two strips' products. -/
theorem out_C_3_eq (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S10000x128 .bf16) (harg5 : arg5.IsWhole) (arg6 : Memref sig .tc .vmem S10000x128 .bf16) (harg6 : arg6.IsWhole)
    (hc1 : ¬condFirst i) (hc3 : ¬condMid i) (hc4 : condLast i) (x1 x2 x3 : Vec F S10000x128 .f32) (xs0 xs1 : Vec F S10000x128 .bf16) :
    out_C_3 c i arg1 harg1 arg2 harg2 arg3 harg3 arg4 harg4 arg5 harg5 arg6 harg6 hc1 hc3 hc4 x1 x2 x3 xs0 xs1 = k0_pay7 xs0 x1 x2 xs1 := by
  unfold out_C_3
  rw [View.read_writes_eq_canon _ _ _ (cover_C_3 c i arg1 harg1 arg2 harg2 arg3 harg3 arg4 harg4 arg5 harg5 arg6 harg6 hc1 hc3 hc4 x1 x2 x3 xs0 xs1)]
  unfold kernelRun_C
  dsimp only
  sl_unfold_words
  rw [View.canon_unit_zero (S := S10000x128) offsets_zero]
  simp only [View.readAt_eq_ld, harg1.read_unread, harg2.read_unread, harg5.read_unread, harg6.read_unread,
    View.ld_unit_zero (S := S10000x128) offsets_zero]

end Cert.KernelIdeal.Hand

end
-- ==== Proof.Spec.lean ====
/-
  The mathematics both programs compute, stated once over the extended reals with no program in sight.

  For a matrix `adj` of 10000 rows and 2048 columns and a matrix `emb` of 10000 rows and 128 columns, the result is
  `adj · (adjᵀ · emb)`: entry (i, d) is the sum over the 2048 columns j of `adj i j` times `lat j d`, where
  `lat j d` is the sum over the 10000 rows k of `adj k j * emb k d`.

  The kernel walks the 2048 columns in 16 strips of 128 columns, two strips per grid point. One strip's
  contribution to entry (i, d) is `strip`: the same double sum restricted to the strip's 128 columns. `colBlock`
  cuts strip number b out of `adj`.
-/
import Idealize.ShloMosaic.PureOps.Ideal
import Idealize.ShloMosaic.Lib.ValueIdx

noncomputable section

open scoped BigOperators

namespace Cert.Hgnn

open Idealize.ShloMosaic Idealize.ShloMosaic.ValueIdx

/-- The shape of `adj`. -/
abbrev SA : Shape := ⟨2, ![10000, 2048]⟩
/-- The shape of `emb`, of the result, and of one strip of `adj`. -/
abbrev SE : Shape := ⟨2, ![10000, 128]⟩

/-- Column j of `adj` against column d of `emb`: entry (j, d) of `adjᵀ · emb`. -/
def lat (adj : SA.Idx → EReal) (emb : SE.Idx → EReal) (j : Fin 2048) (d : Fin 128) : EReal :=
  ∑ k : Fin 10000, adj (ix2 k j) * emb (ix2 k d)

/-- Entry (i, d) of `adj · (adjᵀ · emb)`. -/
def Gat (adj : SA.Idx → EReal) (emb : SE.Idx → EReal) (i : Fin 10000) (d : Fin 128) : EReal :=
  ∑ j : Fin 2048, adj (ix2 i j) * lat adj emb j d

/-- The whole result, as a function of the index. -/
def G (adj : SA.Idx → EReal) (emb : SE.Idx → EReal) : SE.Idx → EReal := fun y => Gat adj emb (y 0) (y 1)

theorem G_ix2 (adj : SA.Idx → EReal) (emb : SE.Idx → EReal) (i : Fin 10000) (d : Fin 128) :
    G adj emb (ix2 i d) = Gat adj emb i d := rfl

/-- One strip's contribution to entry (i, d): the strip's 128 columns j, each `blk i j` times the strip's own
    `(blkᵀ · emb) j d`. -/
def strip (blk : SE.Idx → EReal) (emb : SE.Idx → EReal) (i : Fin 10000) (d : Fin 128) : EReal :=
  ∑ j : Fin 128, blk (ix2 i j) * ∑ k : Fin 10000, blk (ix2 k j) * emb (ix2 k d)

/-- Column `128 * b + j` of strip `b` (of 16) is a column of `adj`. -/
theorem col_lt {b : ℕ} (hb : b < 16) (j : Fin 128) : 128 * b + j.val < 2048 := by
  have := j.isLt; omega

/-- Strip number `b` of `adj`: its columns `128 * b, …, 128 * b + 127`. -/
def colBlock (adj : SA.Idx → EReal) (b : ℕ) (hb : b < 16) : SE.Idx → EReal :=
  fun y => adj (ix2 (n0 := 10000) (y 0) ⟨128 * b + (y 1).val, col_lt hb (y 1)⟩)

theorem colBlock_ix2 (adj : SA.Idx → EReal) (b : ℕ) (hb : b < 16) (k : Fin 10000) (j : Fin 128) :
    colBlock adj b hb (ix2 k j) = adj (ix2 k ⟨128 * b + j.val, col_lt hb j⟩) := rfl

/-- What grid point `h` (of 8) adds to entry (i, d): its two strips, numbers `2h` and `2h + 1`. -/
def pairAt (adj : SA.Idx → EReal) (emb : SE.Idx → EReal) (h : Fin 8) (i : Fin 10000) (d : Fin 128) : EReal :=
  strip (colBlock adj (2 * h.val) (by have := h.isLt; omega)) emb i d
    + strip (colBlock adj (2 * h.val + 1) (by have := h.isLt; omega)) emb i d

end Cert.Hgnn

end
-- ==== Proof.KI.Blocks.lean ====
/-
  The blocks the three input windows stage, read at an index. At grid point t (of 8) the first window stages the 128
  columns of adj that start at column 128 * (2t), the second the 128 columns that start at column 128 * (2t + 1), and
  the third the whole of emb: a block's element at (k, j) sits in its array, on each axis, at the block's index on that
  axis times the block's size there plus the coordinate inside the block, and the three windows' block indices are
  (0, 2t), (0, 2t + 1) and (0, 0). So the first two blocks are strips number 2t and 2t + 1 of adj, and the third is emb.
-/
import proofs.«117794_g6751688590051_cont_9to1c4b_755_29_alg».proof.Proof.KI.Base
import proofs.«117794_g6751688590051_cont_9to1c4b_755_29_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The three input windows' block indices at every grid point, decided once over the 8 points: rows always at block 0;
    columns at block 2t for the first window, 2t + 1 for the second, 0 for the third. -/
theorem inIdx_facts : ∀ t : Fin cfg0.N,
    win0_0.index t (0 : Fin 2) = 0 ∧ win0_0.index t (1 : Fin 2) = 2 * t.val
    ∧ win0_1.index t (0 : Fin 2) = 0 ∧ win0_1.index t (1 : Fin 2) = 2 * t.val + 1
    ∧ win0_2.index t (0 : Fin 2) = 0 ∧ win0_2.index t (1 : Fin 2) = 0 :=
  (by decide +kernel : ∀ t : Fin grid0.N, _)

/-- The first window's block at point t is strip number 2t of adj. -/
theorem iblk0_eq (c : Dev nD) (t : Fin cfg0.N) :
    (iblk m c 0 t : Cert.Hgnn.SE.Idx → EReal)
      = Cert.Hgnn.colBlock (V m c main_arg0) (2 * t.val) (by have := t.isLt; have : cfg0.N = 8 := N_0; omega) := by
  funext y
  obtain ⟨k, j, rfl⟩ : ∃ (k : Fin 10000) (j : Fin 128), y = ix2 k j := ⟨y 0, y 1, eq_ix2 y⟩
  rw [Cert.Hgnn.colBlock_ix2]
  obtain ⟨e0, e1, -⟩ := inIdx_facts t
  show V m c main_arg0 (((cfg0.win 0).blk t).view.emb (ix2 k j)) = V m c main_arg0 _
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * j.val = 128 * (2 * t.val) + j.val; omega

/-- The second window's block at point t is strip number 2t + 1 of adj. -/
theorem iblk1_eq (c : Dev nD) (t : Fin cfg0.N) :
    (iblk m c 1 t : Cert.Hgnn.SE.Idx → EReal)
      = Cert.Hgnn.colBlock (V m c main_arg0) (2 * t.val + 1) (by have := t.isLt; have : cfg0.N = 8 := N_0; omega) := by
  funext y
  obtain ⟨k, j, rfl⟩ : ∃ (k : Fin 10000) (j : Fin 128), y = ix2 k j := ⟨y 0, y 1, eq_ix2 y⟩
  rw [Cert.Hgnn.colBlock_ix2]
  obtain ⟨-, -, e0, e1, -⟩ := inIdx_facts t
  show V m c main_arg0 (((cfg0.win 1).blk t).view.emb (ix2 k j)) = V m c main_arg0 _
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * j.val = 128 * (2 * t.val + 1) + j.val; omega

/-- The third window's block at every point is the whole of emb. -/
theorem iblk2_eq (c : Dev nD) (t : Fin cfg0.N) :
    (iblk m c 2 t : Cert.Hgnn.SE.Idx → EReal) = V m c main_arg1 := by
  funext y
  obtain ⟨k, j, rfl⟩ : ∃ (k : Fin 10000) (j : Fin 128), y = ix2 k j := ⟨y 0, y 1, eq_ix2 y⟩
  obtain ⟨-, -, -, -, e0, e1⟩ := inIdx_facts t
  show V m c main_arg1 (((cfg0.win 2).blk t).view.emb (ix2 k j)) = V m c main_arg1 (ix2 k j)
  refine congrArg _ (funext fun a => Fin.ext ?_)
  match a with
  | ⟨0, _⟩ => show win0_2.index t (0 : Fin 2) * 10000 + 1 * k.val = k.val; omega
  | ⟨1, _⟩ => show win0_2.index t (1 : Fin 2) * 128 + 1 * j.val = j.val; omega

end Cert.KernelIdeal.Hand

end
-- ==== Proof.KI.FinalArr.lean ====
/-
  The output array after the run. The output window's block is its whole array (block index (0, 0) at every grid point),
  and the pipeline writes the window's buffer back to the array at the last grid point only. So the array ends holding
  what the last point left in the window's buffer: the one write-back covers every index of the array, and a block that is
  the whole array, read off contents G, is G.
-/
import proofs.«117794_g6751688590051_cont_9to1c4b_755_29_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index, decided once over the 8 grid points: (0, 0) at every point. -/
theorem outIdx_facts : ∀ t : Fin cfg0.N, win0_3.index t (0 : Fin 2) = 0 ∧ win0_3.index t (1 : Fin 2) = 0 :=
  (by decide +kernel : ∀ t : Fin grid0.N, _)

/-- The last grid point. -/
theorem last_lt : 7 < cfg0.N := by have : cfg0.N = 8 := N_0; omega

/-- The output window's block at any point, read off contents G of the array, is G: an element's place in the array is
    block index 0 times the block's size plus its own coordinate, on both axes. -/
theorem read_blk3 (t : Fin cfg0.N) (G : Vec F S10000x128 .f32) :
    ((cfg0.win 3).blk t).view.read (Elt F) G = (cfg0.win 3).cut (grid0.coords t) G := by
  obtain ⟨e0, e1⟩ := outIdx_facts t
  funext y
  show G (((cfg0.win 3).blk t).view.emb y) = G ((cfg0.win 3).xinj (grid0.coords t) y)
  refine congrArg G (funext fun a => Fin.ext ?_)
  match a with
  | ⟨0, _⟩ => show win0_3.index t (0 : Fin 2) * 10000 + 1 * (y 0).val = (y 0).val; omega
  | ⟨1, _⟩ => show win0_3.index t (1 : Fin 2) * 128 + 1 * (y 1).val = (y 1).val; omega

/-- Every index of the output array lies in the block of the last point, which is written back. -/
theorem cover3 (i : S10000x128.Idx) :
    ∃ t : Fin cfg0.N, (cfg0.win 3).flush t = true ∧ i ∈ ((cfg0.win 3).blk t).view.set := by
  refine ⟨⟨7, last_lt⟩, (flush0_3 _).mpr rfl, ?_⟩
  obtain ⟨e0, e1⟩ := outIdx_facts ⟨7, last_lt⟩
  show i ∈ ((View.whole main_v0).slice (win0_3.rect ⟨7, last_lt⟩)).set
  rw [View.set_slice_whole, Rect.mem_set_unit]
  intro a
  have h0 : (i 0).val < 10000 := (i 0).isLt
  have h1 : (i 1).val < 128 := (i 1).isLt
  match a with
  | ⟨0, _⟩ =>
    show win0_3.index ⟨7, last_lt⟩ (0 : Fin 2) * 10000 ≤ (i 0).val
      ∧ (i 0).val < win0_3.index ⟨7, last_lt⟩ (0 : Fin 2) * 10000 + 10000
    omega
  | ⟨1, _⟩ =>
    show win0_3.index ⟨7, last_lt⟩ (1 : Fin 2) * 128 ≤ (i 1).val
      ∧ (i 1).val < win0_3.index ⟨7, last_lt⟩ (1 : Fin 2) * 128 + 128
    omega

/-- A point that is written back is the last one, so what it leaves in the window's buffer is what the last point leaves. -/
theorem outsAt_of_flush (c : Dev nD) (t : Fin cfg0.N) (hf : (cfg0.win 3).flush t = true) :
    (outsAt m c t.val t.isLt).1 = (outsAt m c 7 last_lt).1 := by
  have h7 : t.val = 7 := by
    have h := (flush0_3 t).mp hf
    have hN : t.val < 8 := lt_of_lt_of_eq t.isLt (show cfg0.N = 8 from N_0)
    omega
  obtain ⟨n, hn⟩ := t
  have h7' : n = 7 := h7
  subst h7'
  rfl

/-- The output array after the run is what the last point left in the output window's buffer. -/
theorem arrAt3_eq (c : Dev nD) : (dats m 0 c).arrAt 3 cfg0.N = (outsAt m c 7 last_lt).1 := by
  refine (dats m 0 c).arrAt_eq_of_cover 3 (outsAt m c 7 last_lt).1 (fun t hf => ?_) (fun i => cover3 i)
  show (cfg0.win 3).cut (grid0.coords t) ((dats m 0 c).after 3 t) = _
  rw [after0_3, outsAt_of_flush m c t hf]
  exact (read_blk3 t _).symm

end Cert.KernelIdeal.Hand

end
-- ==== Proof.PayloadVal.lean ====
/-
  The kernel body's arithmetic, read at an index over the extended reals.

  For each of its two strips `x` (128 columns of `adj`) the body forms `x · (xᵀ · e)`: the inner product contracts the
  10000 rows of both operands, the outer one the strip's 128 columns. Over the extended reals a change of float format
  is the identity, a reshape to the same shape is the identity, and a product accumulated into the zero array is the
  plain sum; so entry (i, d) of one strip's product is `strip x e i d`, and each value the body stores is a sum of
  such entries and of the running total it read.
-/
import proofs.«117794_g6751688590051_cont_9to1c4b_755_29_alg».proof.Proof.Gen.KernelIdeal.Skeleton
import proofs.«117794_g6751688590051_cont_9to1c4b_755_29_alg».proof.Proof.Spec
import Idealize.ShloMosaic.PureOps.Ideal.Laws
import Idealize.ShloMosaic.Lib.ValueIdx
import Idealize.ShloMosaic.Lib.Pipeline.Value

noncomputable section

open scoped BigOperators

namespace Cert.Hgnn.Pay

open Cert.KernelIdeal Cert.KernelIdeal.Gen Idealize.ShloMosaic Idealize.ShloMosaic.ValueIdx

/-- The dimension numbers of `xᵀ · e`: axis 0 of both operands, the 10000 rows, is contracted. -/
abbrev DT : DotDims S10000x128 S10000x128 S128x128 := dot_S10000x128_S10000x128_S128x128_0_0_1_1_n_n
/-- The dimension numbers of the plain product `x · l`: the strip's 128 columns against the 128 rows of `l`. -/
abbrev DP : DotDims S10000x128 S128x128 S10000x128 := dot_S10000x128_S128x128_S10000x128_1_0_0_1_n_n

/-! ## Where the two products read their operands -/

/-- `xᵀ · e` at entry (j, d) and row k reads `x` at (k, j) … -/
theorem DT_lhs (j d : Fin 128) (k : Fin 10000) :
    DT.lhsIdx (ix2 j d) ((contrEquiv1 DT 10000 rfl rfl).symm k) = ix2 k j := by
  funext a
  refine Fin.ext ?_
  match a with
  | ⟨0, _⟩ =>
    exact (DT.lhsIdx_val_of_single (cl := 0) rfl (ix2 j d) _).trans (contrEquiv1_symm_val DT 10000 rfl rfl k)
  | ⟨1, _⟩ =>
    simp [DotDims.lhsIdx, DT, dot_S10000x128_S10000x128_S128x128_0_0_1_1_n_n]; rfl

/-- … and `e` at (k, d). -/
theorem DT_rhs (j d : Fin 128) (k : Fin 10000) :
    DT.rhsIdx (ix2 j d) ((contrEquiv1 DT 10000 rfl rfl).symm k) = ix2 k d := by
  funext a
  refine Fin.ext ?_
  match a with
  | ⟨0, _⟩ =>
    exact (DT.rhsIdx_val_of_single (cr := 0) rfl (ix2 j d) _).trans (contrEquiv1_symm_val DT 10000 rfl rfl k)
  | ⟨1, _⟩ =>
    simp [DotDims.rhsIdx, DT, dot_S10000x128_S10000x128_S128x128_0_0_1_1_n_n]; rfl

/-- `x · l` at entry (i, d) and column j reads `x` at (i, j) … -/
theorem DP_lhs (i : Fin 10000) (d j : Fin 128) :
    DP.lhsIdx (ix2 i d) ((contrEquiv1 DP 128 rfl rfl).symm j) = ix2 i j := by
  funext a
  refine Fin.ext ?_
  match a with
  | ⟨0, _⟩ =>
    simp [DotDims.lhsIdx, DP, dot_S10000x128_S128x128_S10000x128_1_0_0_1_n_n]; rfl
  | ⟨1, _⟩ =>
    exact (DP.lhsIdx_val_of_single (cl := 1) rfl (ix2 i d) _).trans (contrEquiv1_symm_val DP 128 rfl rfl j)

/-- … and `l` at (j, d). -/
theorem DP_rhs (i : Fin 10000) (d j : Fin 128) :
    DP.rhsIdx (ix2 i d) ((contrEquiv1 DP 128 rfl rfl).symm j) = ix2 j d := by
  funext a
  refine Fin.ext ?_
  match a with
  | ⟨0, _⟩ =>
    exact (DP.rhsIdx_val_of_single (cr := 0) rfl (ix2 i d) _).trans (contrEquiv1_symm_val DP 128 rfl rfl j)
  | ⟨1, _⟩ =>
    simp [DotDims.rhsIdx, DP, dot_S10000x128_S128x128_S10000x128_1_0_0_1_n_n]; rfl

/-! ## The two products at an entry -/

/-- `xᵀ · e` accumulated into the zero array, at entry (j, d): the sum over the 10000 rows. -/
theorem inner_apply (x e : FVec Ideal S10000x128 .bf16) (j d : Fin 128) :
    matmul DT none x e (constant (F := Ideal) S128x128 .f32 0x00000000#32) (ix2 j d)
      = ∑ k : Fin 10000, x (ix2 k j) * e (ix2 k d) := by
  refine (Ideal.matmul_constant_zero_apply DT none x e (ix2 j d)).trans ?_
  rw [← Equiv.sum_comp (contrEquiv1 DT 10000 rfl rfl).symm]
  refine Finset.sum_congr rfl fun k _ => ?_
  rw [DT_lhs, DT_rhs]

/-- `x · l` accumulated into the zero array, at entry (i, d): the sum over the strip's 128 columns. -/
theorem outer_apply (x : FVec Ideal S10000x128 .bf16) (l : FVec Ideal S128x128 .bf16) (i : Fin 10000) (d : Fin 128) :
    matmul DP none x l (constant (F := Ideal) S10000x128 .f32 0x00000000#32) (ix2 i d)
      = ∑ j : Fin 128, x (ix2 i j) * l (ix2 j d) := by
  refine (Ideal.matmul_constant_zero_apply DP none x l (ix2 i d)).trans ?_
  rw [← Equiv.sum_comp (contrEquiv1 DP 128 rfl rfl).symm]
  refine Finset.sum_congr rfl fun j _ => ?_
  rw [DP_lhs, DP_rhs]

/-! ## The body's values -/

variable (e : Vec Ideal S10000x128 .bf16) (xa xb : Vec Ideal S10000x128 .f32) (acc : Vec Ideal S10000x128 .bf16)
  (i : Fin 10000) (d : Fin 128)

/-- One strip's product `x · (xᵀ · e)` at entry (i, d). -/
theorem pay2_apply : k0_pay2 (F := Ideal) e xa (ix2 i d) = Cert.Hgnn.strip xa e i d := by
  unfold k0_pay2
  refine (outer_apply _ _ i d).trans ?_
  unfold Cert.Hgnn.strip
  refine Finset.sum_congr rfl fun j _ => ?_
  rw [truncf_apply, truncf_apply]
  exact congrArg (xa (ix2 i j) * ·) (inner_apply _ e j d)

/-- The other strip's product, the same way. -/
theorem pay3_apply : k0_pay3 (F := Ideal) e xb (ix2 i d) = Cert.Hgnn.strip xb e i d := by
  unfold k0_pay3
  refine (outer_apply _ _ i d).trans ?_
  unfold Cert.Hgnn.strip
  refine Finset.sum_congr rfl fun j _ => ?_
  rw [truncf_apply, truncf_apply]
  exact congrArg (xb (ix2 i j) * ·) (inner_apply _ e j d)

/-- The copy of `emb` the first grid point stores is `emb` itself. -/
theorem pay1_eq (v : Vec Ideal S10000x128 .f32) : k0_pay1 (F := Ideal) v = v := by
  unfold k0_pay1
  exact shapeCast_self _ _

/-- The two strips' products added: what the first grid point stores as the running total. -/
theorem pay5_apply : k0_pay5 (F := Ideal) e xa xb (ix2 i d)
    = Cert.Hgnn.strip xa e i d + Cert.Hgnn.strip xb e i d := by
  unfold k0_pay5
  rw [shapeCast_self]
  unfold k0_pay4
  rw [truncf_apply, addf_apply, pay2_apply, pay3_apply]

/-- The running total plus the two strips' products: what a middle grid point stores. -/
theorem pay6_apply : k0_pay6 (F := Ideal) e xa xb acc (ix2 i d)
    = acc (ix2 i d) + (Cert.Hgnn.strip xa e i d + Cert.Hgnn.strip xb e i d) := by
  unfold k0_pay6
  rw [shapeCast_self, addf_apply]
  unfold k0_pay4
  rw [truncf_apply, addf_apply, pay2_apply, pay3_apply]

/-- The running total plus the two strips' products: what the last grid point stores as the result. -/
theorem pay7_apply : k0_pay7 (F := Ideal) e xa xb acc (ix2 i d)
    = acc (ix2 i d) + (Cert.Hgnn.strip xa e i d + Cert.Hgnn.strip xb e i d) := by
  unfold k0_pay7
  rw [addf_apply, addf_apply, extf_apply, pay2_apply, pay3_apply]

end Cert.Hgnn.Pay

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Regroup.lean ====
/-
  The regrouping of the 2048 columns. Entry (i, d) of adj · (adjᵀ · emb) is a sum over the 2048 columns of adj. Cut the
  columns into 16 consecutive strips of 128: the part of the sum that falls in strip b is that strip's own double sum,
  because column j of strip b is column 128 * b + j of adj. Pair the strips two by two: 8 pairs, pair h being strips 2h
  and 2h + 1. So the entry is the sum of the 8 pair terms, and a running total that starts at pair 0 and adds pair k + 1 at
  step k + 1 holds the entry after step 7. Only commutativity and associativity of + on the extended reals are used.
-/
import proofs.«117794_g6751688590051_cont_9to1c4b_755_29_alg».proof.Proof.Spec
import proofs.«117794_g6751688590051_cont_9to1c4b_755_29_alg».proof.Proof.LibBlockSum

noncomputable section

open scoped BigOperators

namespace Cert.Hgnn

open Idealize.ShloMosaic Idealize.ShloMosaic.ValueIdx Cert.LibBlockSum

namespace Regroup

/-- The summand of entry (i, d) at column j of adj. -/
def term (adj : SA.Idx → EReal) (emb : SE.Idx → EReal) (i : Fin 10000) (d : Fin 128) (j : Fin 2048) : EReal :=
  adj (ix2 i j) * lat adj emb j d

theorem Gat_eq_sum_term (adj : SA.Idx → EReal) (emb : SE.Idx → EReal) (i : Fin 10000) (d : Fin 128) :
    Gat adj emb i d = ∑ j : Fin 2048, term adj emb i d j := rfl

/-- Strip b's own double sum is the sum of the summands at its 128 columns: column j of the strip is column
    128 * b + j of adj, both in the outer factor and inside the inner sum over the rows. -/
theorem strip_colBlock (adj : SA.Idx → EReal) (emb : SE.Idx → EReal) (b : ℕ) (hb : b < 16) (i : Fin 10000)
    (d : Fin 128) :
    strip (colBlock adj b hb) emb i d = ∑ j : Fin 128, term adj emb i d ⟨128 * b + j.val, col_lt hb j⟩ := rfl

/-- Strip number b (of 16) as a function of b alone. -/
def stripAt (adj : SA.Idx → EReal) (emb : SE.Idx → EReal) (i : Fin 10000) (d : Fin 128) (b : Fin 16) : EReal :=
  strip (colBlock adj b.val b.isLt) emb i d

/-- 2048 = 16 * 128: the entry is the sum of the 16 strips. -/
theorem Gat_eq_sum_stripAt (adj : SA.Idx → EReal) (emb : SE.Idx → EReal) (i : Fin 10000) (d : Fin 128) :
    Gat adj emb i d = ∑ b : Fin 16, stripAt adj emb i d b := by
  rw [Gat_eq_sum_term]
  exact (sum_blocks_mul 16 128 (term adj emb i d)).symm

/-- 16 = 8 * 2: a sum over 16 terms is the sum over 8 consecutive pairs. -/
theorem sum_pairs {M : Type*} [AddCommMonoid M] (g : Fin 16 → M) :
    ∑ b : Fin 16, g b
      = ∑ h : Fin 8, (g ⟨2 * h.val, by have := h.isLt; omega⟩ + g ⟨2 * h.val + 1, by have := h.isLt; omega⟩) := by
  rw [← sum_blocks_mul 8 2 g]
  refine Finset.sum_congr rfl fun h _ => ?_
  rw [Fin.sum_univ_two]
  rfl

/-- A running total over the first N terms: if it starts at term 0 and step k + 1 (for k + 1 < N) adds term k + 1, then
    after step n < N it is the sum of the terms 0, …, n. -/
theorem run_sum_below {M : Type*} [AddCommMonoid M] (N : ℕ) (g acc : ℕ → M) (h0 : acc 0 = g 0)
    (hs : ∀ k, k + 1 < N → acc (k + 1) = acc k + g (k + 1)) (n : ℕ) (hn : n < N) :
    acc n = ∑ k ∈ Finset.range (n + 1), g k := by
  induction n with
  | zero => rw [Finset.sum_range_one]; exact h0
  | succ n ih => rw [hs n hn, ih (by omega), Finset.sum_range_succ _ (n + 1)]

end Regroup

open Regroup

/-- The entry is the sum of the 8 pair terms. -/
theorem Gat_eq_sum_pairAt (adj : SA.Idx → EReal) (emb : SE.Idx → EReal) (i : Fin 10000) (d : Fin 128) :
    Gat adj emb i d = ∑ h : Fin 8, pairAt adj emb h i d := by
  rw [Gat_eq_sum_stripAt, sum_pairs]
  rfl

/-- The running total over the 8 pairs holds the entry after step 7. -/
theorem total_eq (adj : SA.Idx → EReal) (emb : SE.Idx → EReal) (i : Fin 10000) (d : Fin 128) (acc : ℕ → EReal)
    (h0 : acc 0 = pairAt adj emb ⟨0, by decide⟩ i d)
    (hs : ∀ k (hk : k + 1 < 8), acc (k + 1) = acc k + pairAt adj emb ⟨k + 1, hk⟩ i d) :
    acc 7 = Gat adj emb i d := by
  let g : ℕ → EReal := fun k => if hk : k < 8 then pairAt adj emb ⟨k, hk⟩ i d else 0
  have hg : ∀ h : Fin 8, g h.val = pairAt adj emb h i d := fun h => dif_pos h.isLt
  have h0' : acc 0 = g 0 := h0.trans (hg ⟨0, by decide⟩).symm
  have hs' : ∀ k, k + 1 < 8 → acc (k + 1) = acc k + g (k + 1) := fun k hk =>
    (hs k hk).trans (congrArg (acc k + ·) (hg ⟨k + 1, hk⟩).symm)
  rw [run_sum_below 8 g acc h0' hs' 7 (by decide), sum_range_eq_sum_fin 8 g, Gat_eq_sum_pairAt]
  exact Finset.sum_congr rfl fun h _ => hg h

end Cert.Hgnn

end
-- ==== Proof.KI.Value.lean ====
/-
  The value of the idealized kernel: after the run the result array holds `adj · (adjᵀ · emb)`.

  At the ideal instance the first scratch buffer holds the embeddings themselves after every point (the change of
  float format is the identity), the two strips' windows at point h hold strips 2h and 2h + 1 of `adj`, and the
  second scratch buffer after point n holds, entry by entry, the sum of the contributions of points 0 … n; the last
  point writes that running total plus its own contribution, and the eight contributions regroup into the sum over
  all 2048 columns.
-/
import proofs.«117794_g6751688590051_cont_9to1c4b_755_29_alg».proof.Proof.KI.Frame
import proofs.«117794_g6751688590051_cont_9to1c4b_755_29_alg».proof.Proof.KI.Pieces
import proofs.«117794_g6751688590051_cont_9to1c4b_755_29_alg».proof.Proof.KI.Blocks
import proofs.«117794_g6751688590051_cont_9to1c4b_755_29_alg».proof.Proof.KI.FinalArr
import proofs.«117794_g6751688590051_cont_9to1c4b_755_29_alg».proof.Proof.PayloadVal
import proofs.«117794_g6751688590051_cont_9to1c4b_755_29_alg».proof.Proof.Regroup

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Hgnn Cert.Hgnn.Pay

variable (m : (ℓ : Loc nD τ sig) → Buf (Elt Ideal) ℓ) (ρ : Dev nD → PrngReg)

/-- The first scratch buffer holds the embeddings after every point. -/
theorem s0_eq (c : Dev nD) (t : Fin cfg0.N) :
    ((outsAt m c t.val t.isLt).2.1 : SE.Idx → EReal) = V m c main_arg1 := by
  obtain ⟨n, hn⟩ := t
  induction n with
  | zero =>
    rw [outsAt_A m c ⟨0, hn⟩ rfl]
    dsimp only
    rw [sout_A_0_eq, pay1_eq]
    exact iblk2_eq m c ⟨0, hn⟩
  | succ n ih =>
    by_cases h7 : n + 1 = 7
    · rw [outsAt_C m c ⟨n + 1, hn⟩ h7]
      exact ih (Nat.lt_of_succ_lt hn)
    · rw [outsAt_B m c ⟨n + 1, hn⟩ (Nat.succ_ne_zero n) h7]
      exact ih (Nat.lt_of_succ_lt hn)

/-- The contribution of point `t`, from the blocks its two windows hold. -/
theorem pair_at (c : Dev nD) (t : Fin cfg0.N) (ht : t.val < 8) (i : Fin 10000) (d : Fin 128) :
    strip (iblk m c 0 t) (V m c main_arg1) i d + strip (iblk m c 1 t) (V m c main_arg1) i d
      = pairAt (V m c main_arg0) (V m c main_arg1) ⟨t.val, ht⟩ i d := by
  rw [iblk0_eq m c t, iblk1_eq m c t]
  rfl

/-- Entry (i, d) of the running total after point `n`; at the last point, of the output window's buffer. -/
def accAt (c : Dev nD) (i : Fin 10000) (d : Fin 128) (n : ℕ) : EReal :=
  if h : n < cfg0.N then
    (if n = 7 then (outsAt m c n h).1 (ix2 i d) else (outsAt m c n h).2.2 (ix2 i d))
  else 0

theorem accAt_zero (c : Dev nD) (i : Fin 10000) (d : Fin 128) :
    accAt m c i d 0 = pairAt (V m c main_arg0) (V m c main_arg1) ⟨0, by decide⟩ i d := by
  have hN : (0 : ℕ) < cfg0.N := by have : cfg0.N = 8 := N_0; omega
  unfold accAt
  rw [dif_pos hN, if_neg (by decide)]
  have e := outsAt_A m c ⟨0, hN⟩ rfl
  rw [show outsAt m c 0 hN = outsAt m c (⟨0, hN⟩ : Fin cfg0.N).val (⟨0, hN⟩ : Fin cfg0.N).isLt from rfl, e]
  dsimp only
  rw [sout_A_1_eq, pay5_apply, pay1_eq, iblk2_eq m c ⟨0, hN⟩]
  exact pair_at m c ⟨0, hN⟩ (show (0 : ℕ) < 8 by decide) i d

theorem accAt_succ (c : Dev nD) (i : Fin 10000) (d : Fin 128) (k : ℕ) (hk : k + 1 < 8) :
    accAt m c i d (k + 1) = accAt m c i d k + pairAt (V m c main_arg0) (V m c main_arg1) ⟨k + 1, hk⟩ i d := by
  have hN : cfg0.N = 8 := N_0
  have hk1 : k + 1 < cfg0.N := by omega
  have hk0 : k < cfg0.N := by omega
  have es0 : ((outsAt m c k hk0).2.1 : SE.Idx → EReal) = V m c main_arg1 := s0_eq m c ⟨k, hk0⟩
  unfold accAt
  rw [dif_pos hk1, dif_pos hk0, if_neg (show ¬ k = 7 by omega)]
  by_cases h7 : k + 1 = 7
  · rw [if_pos h7]
    have e := outsAt_C m c ⟨k + 1, hk1⟩ h7
    rw [show outsAt m c (k + 1) hk1 = outsAt m c (⟨k + 1, hk1⟩ : Fin cfg0.N).val (⟨k + 1, hk1⟩ : Fin cfg0.N).isLt from rfl, e]
    dsimp only
    rw [out_C_3_eq, pay7_apply]
    show (outsAt m c k hk0).2.2 (ix2 i d) + (strip (iblk m c 0 ⟨k + 1, hk1⟩) (outsAt m c k hk0).2.1 i d + strip (iblk m c 1 ⟨k + 1, hk1⟩) (outsAt m c k hk0).2.1 i d) = _
    rw [es0]
    exact congrArg _ (pair_at m c ⟨k + 1, hk1⟩ hk i d)
  · rw [if_neg h7]
    have e := outsAt_B m c ⟨k + 1, hk1⟩ (Nat.succ_ne_zero k) h7
    rw [show outsAt m c (k + 1) hk1 = outsAt m c (⟨k + 1, hk1⟩ : Fin cfg0.N).val (⟨k + 1, hk1⟩ : Fin cfg0.N).isLt from rfl, e]
    dsimp only
    rw [sout_B_1_eq, pay6_apply]
    show (outsAt m c k hk0).2.2 (ix2 i d) + (strip (iblk m c 0 ⟨k + 1, hk1⟩) (outsAt m c k hk0).2.1 i d + strip (iblk m c 1 ⟨k + 1, hk1⟩) (outsAt m c k hk0).2.1 i d) = _
    rw [es0]
    exact congrArg _ (pair_at m c ⟨k + 1, hk1⟩ hk i d)

/-- What the last point leaves in the output window's buffer is the whole result. -/
theorem out_eq_G (c : Dev nD) (h7 : 7 < cfg0.N) :
    ((outsAt m c 7 h7).1 : SE.Idx → EReal) = G (V m c main_arg0) (V m c main_arg1) := by
  funext y
  obtain ⟨i, d, rfl⟩ : ∃ (i : Fin 10000) (d : Fin 128), y = ix2 i d := ⟨y 0, y 1, eq_ix2 y⟩
  rw [G_ix2]
  have := total_eq (V m c main_arg0) (V m c main_arg1) i d (accAt m c i d) (accAt_zero m c i d) (fun k hk => accAt_succ m c i d k hk)
  rw [← this]
  unfold accAt
  rw [dif_pos h7, if_pos rfl]

end Cert.KernelIdeal.Hand

end
-- ==== Proof.KI.RunValue.lean ====
/-
  The idealized kernel's run with its value: the result array ends at `adj · (adjᵀ · emb)` of the argument arrays,
  which end unchanged.
-/
import proofs.«117794_g6751688590051_cont_9to1c4b_755_29_alg».proof.Proof.KI.Run
import proofs.«117794_g6751688590051_cont_9to1c4b_755_29_alg».proof.Proof.KI.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Hgnn

variable (m : (ℓ : Loc nD τ sig) → Buf (Elt Ideal) ℓ) (ρ : Dev nD → PrngReg)

/-- THE KERNEL'S RUN WITH ITS VALUE: the result array ends at `adj · (adjᵀ · emb)`, the arguments unchanged. -/
theorem run_value : θ_run (defs (F := Ideal)) (onTc (τ := τ) (main (F := Ideal))) ⟨m, fun _ => 0, ρ⟩ (fun r => ∀ c : Dev nD,
      r.2.mem ((c.tc : Thread nD τ).loc main_v0) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 3).trans ((arrAt3_eq m c).trans (out_eq_G m c last_lt)),
     ((h c) 0).trans (((dats m 0 c).arrAt_in 0 rfl _).trans (A_eq m c 0)),
     ((h c) 2).trans (((dats m 0 c).arrAt_in 2 rfl _).trans (A_eq m c 2))⟩) (run_main m ρ)

end Cert.KernelIdeal.Hand

end
-- ==== Proof.RefValue.lean ====
/-
  The reference program computes the specification. The reference transposes adj, multiplies the transpose by emb
  (a 2048 × 128 matrix whose entry (j, d) is the sum over the 10000 rows k of adj k j * emb k d), and multiplies adj by
  that product: entry (i, d) of the result is the sum over the 2048 columns j of adj i j times that entry. Read index by
  index this is the specification's double sum, term for term; no law of arithmetic is used.
-/
import proofs.«117794_g6751688590051_cont_9to1c4b_755_29_alg».proof.Proof.Spec
import proofs.«117794_g6751688590051_cont_9to1c4b_755_29_alg».proof.Defs
import proofs.«117794_g6751688590051_cont_9to1c4b_755_29_alg».proof.Proof.Gen.ReferenceIdeal
import proofs.«117794_g6751688590051_cont_9to1c4b_755_29_alg».proof.Proof.Gen.Pre_finite_inputs
import proofs.«117794_g6751688590051_cont_9to1c4b_755_29_alg».proof.Proof.Gen.ReferenceIdeal.Read

noncomputable section

open scoped BigOperators

namespace Cert.Hgnn.Ref

open Idealize.ShloMosaic Idealize.ShloMosaic.TcCoe Idealize.SL.Sem Idealize.ShloMosaic.ValueIdx
open Cert.ReferenceIdeal Cert.ReferenceIdeal.Read

/-! ## The index maps of the three operations, at an index given by its coordinates -/

/-- The second product reads adj at row i of the result's index and column j of the contraction. -/
theorem lidx_v2 (i : Fin 10000) (d : Fin 128) (j : Fin 2048) :
    lidx_main_v2 (ix2 i d) j = ix2 i j :=
  funext fun a => Fin.ext (by match a with | ⟨0, _⟩ => rfl | ⟨1, _⟩ => rfl)

/-- … and the first product at row j, column d. -/
theorem ridx_v2 (i : Fin 10000) (d : Fin 128) (j : Fin 2048) :
    ridx_main_v2 (ix2 i d) j = ix2 j d :=
  funext fun a => Fin.ext (by match a with | ⟨0, _⟩ => rfl | ⟨1, _⟩ => rfl)

/-- The first product reads the transpose at row j, column k of the contraction. -/
theorem lidx_v1 (j : Fin 2048) (d : Fin 128) (k : Fin 10000) :
    lidx_main_v1 (ix2 j d) k = ix2 j k :=
  funext fun a => Fin.ext (by match a with | ⟨0, _⟩ => rfl | ⟨1, _⟩ => rfl)

/-- … and emb at row k, column d. -/
theorem ridx_v1 (j : Fin 2048) (d : Fin 128) (k : Fin 10000) :
    ridx_main_v1 (ix2 j d) k = ix2 k d :=
  funext fun a => Fin.ext (by match a with | ⟨0, _⟩ => rfl | ⟨1, _⟩ => rfl)

/-- Entry (j, k) of the transpose is entry (k, j) of adj. -/
theorem idx_v0 (j : Fin 2048) (k : Fin 10000) :
    idx_main_v0 (ix2 j k) = ix2 k j :=
  funext fun a => Fin.ext (by match a with | ⟨0, _⟩ => rfl | ⟨1, _⟩ => rfl)

/-! ## The reference's result is the specification -/

/-- Entry (j, d) of the first product, adjᵀ · emb. -/
theorem val_v1_ix2 (adj : SA.Idx → EReal) (emb : SE.Idx → EReal) (j : Fin 2048) (d : Fin 128) :
    val_main_v1 (F := Ideal) adj emb (ix2 j d) = lat adj emb j d := by
  rw [val_main_v1_apply]
  unfold lat
  refine Finset.sum_congr rfl fun k _ => ?_
  rw [val_main_v0_apply, lidx_v1, ridx_v1, idx_v0]

/-- Entry (i, d) of the second product, adj · (adjᵀ · emb). -/
theorem val_v2_ix2 (adj : SA.Idx → EReal) (emb : SE.Idx → EReal) (i : Fin 10000) (d : Fin 128) :
    val_main_v2 (F := Ideal) adj emb (ix2 i d) = Gat adj emb i d := by
  rw [val_main_v2_apply]
  unfold Gat
  refine Finset.sum_congr rfl fun j _ => ?_
  rw [lidx_v2, ridx_v2, val_v1_ix2]

/-- The whole result of the reference is the specification's function of the two argument arrays. -/
theorem val_eq_G (adj : SA.Idx → EReal) (emb : SE.Idx → EReal) :
    val_main_v2 (F := Ideal) adj emb = G adj emb := by
  funext y
  obtain ⟨i, d, rfl⟩ : ∃ (i : Fin 10000) (d : Fin 128), y = ix2 i d := ⟨y 0, y 1, eq_ix2 y⟩
  rw [val_v2_ix2, G_ix2]

/-! ## The run -/

/-- Every weakly fair execution of the reference terminates with its result array at the specification of the two
    argument arrays as they were at launch, and the argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v2)
          = Cert.Hgnn.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v2_eq _ _).trans (val_eq_G _ _)), (h c).2⟩)
    (Cert.ReferenceIdeal.Value.run (F := Ideal) m' ρ')

/-- The reference runs and leaves its argument arrays unchanged. -/
theorem frame : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

end Cert.Hgnn.Ref

end
-- ==== Proof.lean ====
/-
  The certificate's claim: the three frames, the idealization (the ideal pass rewrote nothing), and the equality of
  the idealized kernel and the idealized reference at the ideal instance.

  Both programs compute `adj · (adjᵀ · emb)`. The kernel walks the 2048 columns of `adj` in 16 strips of 128, two
  per grid point, keeping a 16-bit copy of `emb` and a 16-bit running total in scratch memory; at the ideal instance
  the changes of float format are the identity, each matrix product is a plain finite sum, and the eight points'
  contributions regroup, by commutativity and associativity of addition alone, into the reference's sum over all
  columns — so the precondition (finite inputs) is never opened. The two windows that stage the strips read ONE
  array, each holding half of its share.
-/
import proofs.«117794_g6751688590051_cont_9to1c4b_755_29_alg».proof.Defs
import proofs.«117794_g6751688590051_cont_9to1c4b_755_29_alg».proof.Proof.Gen.Kernel
import proofs.«117794_g6751688590051_cont_9to1c4b_755_29_alg».proof.Proof.Gen.KernelIdeal
import proofs.«117794_g6751688590051_cont_9to1c4b_755_29_alg».proof.Proof.Gen.ReferenceIdeal
import proofs.«117794_g6751688590051_cont_9to1c4b_755_29_alg».proof.Proof.Gen.Pre_finite_inputs
import proofs.«117794_g6751688590051_cont_9to1c4b_755_29_alg».proof.Proof.K.Run
import proofs.«117794_g6751688590051_cont_9to1c4b_755_29_alg».proof.Proof.KI.RunValue
import proofs.«117794_g6751688590051_cont_9to1c4b_755_29_alg».proof.Proof.RefValue

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- At the ideal instance, from memories agreeing on the arguments, both programs end with the result array at
    `adj · (adjᵀ · emb)` of the arguments. -/
theorem algebraic : Cert.algebraic_KernelIdeal_ReferenceIdeal := by
  intro m ρ m' ρ' _ hagree
  refine ⟨fun c => Cert.Hgnn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2.1, (h c).2.2⟩)
    (Cert.Hgnn.Ref.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.Hgnn.Ref.frame, trivial, algebraic⟩

end Cert.Proof

end
